-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128 : Shape := ⟨3, ![8, 256, 128]⟩
abbrev S8x256x256 : Shape := ⟨3, ![8, 256, 256]⟩
abbrev S128x257 : Shape := ⟨2, ![128, 257]⟩
abbrev S128 : Shape := ⟨1, ![128]⟩
abbrev S128x256 : Shape := ⟨2, ![128, 256]⟩
abbrev S_ : Shape := ⟨0, ![]⟩

class Facts : Prop where
  bcast_S_S8x256x128 : S_.BroadcastsInDim S8x256x128 (![] : Fin 0 → Fin S8x256x128.rank)
  reducesTo_S8x256x128_S_d0_1_2 : S8x256x128.ReducesTo [0, 1, 2] S_
  h_S_ : 0 < S_.numel
  bcast_S_S8x256x256 : S_.BroadcastsInDim S8x256x256 (![] : Fin 0 → Fin S8x256x256.rank)
  reducesTo_S8x256x256_S_d0_1_2 : S8x256x256.ReducesTo [0, 1, 2] S_
  bcast_S_S128x257 : S_.BroadcastsInDim S128x257 (![] : Fin 0 → Fin S128x257.rank)
  reducesTo_S128x257_S_d0_1 : S128x257.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part2 {F : FTy → Type} [FloatOps F] (main_arg7 : FVec F S128 .f32) (main_arg8 : FVec F S128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128 .f32) (main_arg5 : FVec F S128 .f32) (main_arg6 : FVec F S128x256 .f32) (main_arg7 : FVec F S128 .f32) (main_arg8 : FVec F S128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x256x128 .f32) (main_arg1 : FVec F S8x256x256 .f32) (main_arg2 : FVec F S128x257 .f32) (main_arg3 : FVec F S128 .f32) (main_arg4 : FVec F S128 .f32) (main_arg5 : FVec F S128 .f32) (main_arg6 : FVec F S128x256 .f32) (main_arg7 : FVec F S128 .f32) (main_arg8 : FVec F S128 .f32) (main_arg9 : FVec F S128 .f32) : IVec S_ 1 :=
  let main_v0 : FVec F S8x256x128 .f32 := Host.absf main_arg0
  let main_cst : FVec F S_ .f32 := constant S_ .f32 0x7F800000#32
  let main_v1 : FVec F S8x256x128 .f32 := broadcastInDim S8x256x128 ![] bcast_S_S8x256x128 main_cst
  let main_v2 : IVec S8x256x128 1 := cmpf .olt main_v0 main_v1
  let main_c : IVec S_ 1 := constantI S_ 1 1#1
  let main_v3 : IVec S_ 1 := (fun x v => Host.reduce IntOp.andi x v reducesTo_S8x256x128_S_d0_1_2 h_S_) main_v2 main_c
  let main_v4 : FVec F S8x256x256 .f32 := Host.absf main_arg1
  let main_cst_0 : FVec F S_ .f32 := constant S_ .f32 0x7F800000#32
  let main_v5 : FVec F S8x256x256 .f32 := broadcastInDim S8x256x256 ![] bcast_S_S8x256x256 main_cst_0
  let main_v6 : IVec S8x256x256 1 := cmpf .olt main_v4 main_v5
  let main_c_1 : IVec S_ 1 := constantI S_ 1 1#1
  let main_v7 : IVec S_ 1 := (fun x v => Host.reduce IntOp.andi x v reducesTo_S8x256x256_S_d0_1_2 h_S_) main_v6 main_c_1
  let main_v8 : IVec S_ 1 := andi main_v3 main_v7
  let main_v9 : FVec F S128x257 .f32 := Host.absf main_arg2
  let main_cst_2 : FVec F S_ .f32 := constant S_ .f32 0x7F800000#32
  let main_v10 : FVec F S128x257 .f32 := broadcastInDim S128x257 ![] bcast_S_S128x257 main_cst_2
  let main_v11 : IVec S128x257 1 := cmpf .olt main_v9 main_v10
  let main_c_3 : IVec S_ 1 := constantI S_ 1 1#1
  let main_v12 : IVec S_ 1 := (fun x v => Host.reduce IntOp.andi x v reducesTo_S128x257_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S8x256x128 : Shape := ⟨3, ![8, 256, 128]⟩
abbrev S8x256x256 : Shape := ⟨3, ![8, 256, 256]⟩
abbrev S128x257 : Shape := ⟨2, ![128, 257]⟩
abbrev S128 : Shape := ⟨1, ![128]⟩
abbrev S128x256 : Shape := ⟨2, ![128, 256]⟩
abbrev S128x128 : Shape := ⟨2, ![128, 128]⟩
abbrev S128x1 : Shape := ⟨2, ![128, 1]⟩
abbrev S1x128 : Shape := ⟨2, ![1, 128]⟩
abbrev S1x64x128 : Shape := ⟨3, ![1, 64, 128]⟩
abbrev S1x256x128 : Shape := ⟨3, ![1, 256, 128]⟩
abbrev S1x64x256 : Shape := ⟨3, ![1, 64, 256]⟩
abbrev S64x128 : Shape := ⟨2, ![64, 128]⟩
abbrev S256x128 : Shape := ⟨2, ![256, 128]⟩
abbrev S64x256 : Shape := ⟨2, ![64, 256]⟩
abbrev S64x1x128 : Shape := ⟨3, ![64, 1, 128]⟩
abbrev S64x256x128 : Shape := ⟨3, ![64, 256, 128]⟩
abbrev S64x256x1 : Shape := ⟨3, ![64, 256, 1]⟩
abbrev S1x1x128 : Shape := ⟨3, ![1, 1, 128]⟩
abbrev S64 : Shape := ⟨1, ![64]⟩
abbrev S64x1 : Shape := ⟨2, ![64, 1]⟩

abbrev nBuf : Space → Nat
  | .hbm => 28
  | .vmem => 19
  | .smem => 0
  | _ => 0

abbrev bufTy : (tb : Table) → Fin (tcTables nBuf tb) → BufTy
  | .hbm, ⟨0, _⟩ => ⟨S8x256x128, .f32⟩
  | .hbm, ⟨1, _⟩ => ⟨S8x256x256, .f32⟩
  | .hbm, ⟨2, _⟩ => ⟨S128x257, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128x1, .f32⟩
  | .hbm, ⟨13, _⟩ => ⟨S128, .f32⟩
  | .hbm, ⟨14, _⟩ => ⟨S1x128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S8x256x128, .f32⟩
  | .local _ .vmem, ⟨0, _⟩ => ⟨S1x64x128, .f32⟩
  | .local _ .vmem, ⟨1, _⟩ => ⟨S1x64x128, .f32⟩
  | .local _ .vmem, ⟨2, _⟩ => ⟨S1x256x128, .f32⟩
  | .local _ .vmem, ⟨3, _⟩ => ⟨S1x256x128, .f32⟩
  | .local _ .vmem, ⟨4, _⟩ => ⟨S1x64x256, .f32⟩
  | .local _ .vmem, ⟨5, _⟩ => ⟨S1x64x256, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x64x128, .f32⟩
  | .local _ .vmem, ⟨18, _⟩ => ⟨S1x64x128, .f32⟩
  | _, _ => ⟨S8x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c64_i32 : BitVec 32 := 64#32
  let v0 : BitVec 32 := Scalar.muli arg1 c64_i32
  v0
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

class Facts₀ : Prop where
  slices_S128x257_S128x128_0_0 : S128x257.Slices ![0, 0] S128x128
  slices_S128x257_S128x128_0_128 : S128x257.Slices ![0, 128] S128x128
  slices_S128x257_S128x1_0_256 : S128x257.Slices ![0, 256] S128x1
  shapeCasts_S128x1_S128 : S128x1.ShapeCasts S128
  shapeCasts_S128_S1x128 : S128.ShapeCasts S1x128
  transposes_S128x128_S128x128_1_0 : S128x128.Transposes [1, 0] S128x128
  slices_S128x256_S128x128_0_0 : S128x256.Slices ![0, 0] S128x128
  slices_S128x256_S128x128_0_128 : S128x256.Slices ![0, 128] S128x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S128 : S1x128.ShapeCasts S128
  broadcasts_S1x128_S64x128 : S1x128.Broadcasts S64x128
  shapeCasts_S64x128_S64x1x128 : S64x128.ShapeCasts S64x1x128
  shapeCasts_S256x128_S1x256x128 : S256x128.ShapeCasts S1x256x128
  broadcasts_S64x1x128_S64x256x128 : S64x1x128.Broadcasts S64x256x128
  broadcasts_S1x256x128_S64x256x128 : S1x256x128.Broadcasts S64x256x128
  shapeCasts_S64x256_S64x256x1 : S64x256.ShapeCasts S64x256x1
  shapeCasts_S128_S1x1x128 : S128.ShapeCasts S1x1x128
  broadcasts_S64x256x1_S64x256x128 : S64x256x1.Broadcasts S64x256x128
  broadcasts_S1x1x128_S64x256x128 : S1x1x128.Broadcasts S64x256x128
  reduces_S64x256x128_S64x256 : S64x256x128.Reduces [2] S64x256
  reduces_S64x256x128_S64x128 : S64x256x128.Reduces [1] S64x128
  iota_S64x256_d0_w32 : S64x256.Iotas .tc 32 [0]
  iota_S64x256_d1_w32 : S64x256.Iotas .tc 32 [1]
  reduces_S64x256_S64 : S64x256.Reduces [1] S64
  shapeCasts_S64_S64x1 : S64.ShapeCasts S64x1
  broadcasts_S64x1_S64x128 : S64x1.Broadcasts S64x128
  reduces_S64x128_S64 : S64x128.Reduces [1] S64
  shapeCasts_S64x128_S1x64x128 : S64x128.ShapeCasts S1x64x128
  dot_S64x128_S128x128_S64x128_1_0_0_1_n_n_wf : DotDims.WF S64x128 S128x128 S64x128 [1] [0] [0] [1] [] []
  dot_S256x128_S128x128_S256x128_1_0_0_1_n_n_wf : DotDims.WF S256x128 S128x128 S256x128 [1] [0] [0] [1] [] []
  hrank0 : 0 < grid0.rank
  k0_mult1_dvd : ∀ i : grid0.Coords, 64 ∣ (k0_mult1 i).toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128.size a ≤ S8x256x128.size a
  hwx0_0 : ∀ i : grid0.Coords, EltTy.bits .f32 = 32 ∨ (Rect.block (s := S8x256x128) S1x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x128.size a ≤ S8x256x128.size a
  hwx0_1 : ∀ i : grid0.Coords, EltTy.bits .f32 = 32 ∨ (Rect.block (s := S8x256x128) S1x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x256.size a ≤ S8x256x256.size a
  hwx0_2 : ∀ i : grid0.Coords, EltTy.bits .f32 = 32 ∨ (Rect.block (s := S8x256x256) S1x64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x64x128.size a ≤ S8x256x128.size a
  hwx0_14 : ∀ i : grid0.Coords, EltTy.bits .f32 = 32 ∨ (Rect.block (s := S8x256x128) S1x64x128.size (cc0_transform_14 i) (hinb0_14 i)).WholeWords (EltTy.packing .f32)

variable [Facts₀]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_arg0) S1x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v14) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v15) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v16) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v17) S1x64x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S8x256x128 : Shape := ⟨3, ![8, 256, 128]⟩
abbrev S8x256x256 : Shape := ⟨3, ![8, 256, 256]⟩
abbrev S128x257 : Shape := ⟨2, ![128, 257]⟩
abbrev S128 : Shape := ⟨1, ![128]⟩
abbrev S128x256 : Shape := ⟨2, ![128, 256]⟩
abbrev S128x128 : Shape := ⟨2, ![128, 128]⟩
abbrev S128x1 : Shape := ⟨2, ![128, 1]⟩
abbrev S8x256x1x128 : Shape := ⟨4, ![8, 256, 1, 128]⟩
abbrev S8x1x256x128 : Shape := ⟨4, ![8, 1, 256, 128]⟩
abbrev S8x256x256x128 : Shape := ⟨4, ![8, 256, 256, 128]⟩
abbrev S8x256x256x1 : Shape := ⟨4, ![8, 256, 256, 1]⟩
abbrev S1x1x1x128 : Shape := ⟨4, ![1, 1, 1, 128]⟩
abbrev S_ : Shape := ⟨0, ![]⟩
abbrev S256 : Shape := ⟨1, ![256]⟩
abbrev S256x1 : Shape := ⟨2, ![256, 1]⟩
abbrev S256x2 : Shape := ⟨2, ![256, 2]⟩
abbrev S1x1x128 : Shape := ⟨3, ![1, 1, 128]⟩
abbrev S8x256 : Shape := ⟨2, ![8, 256]⟩
abbrev S8x256x1 : Shape := ⟨3, ![8, 256, 1]⟩

abbrev nBuf : Space → Nat
  | .hbm => 137
  | .vmem => 0
  | .smem => 0
  | _ => 0

abbrev hbmTy0_0 (i : Nat) : BufTy := match i % 128 with
  | 0 => ⟨S8x256x128, .f32⟩
  | 1 => ⟨S8x256x256, .f32⟩
  | 2 => ⟨S128x257, .f32⟩
  | 3 => ⟨S128, .f32⟩
  | 4 => ⟨S128, .f32⟩
  | 5 => ⟨S128, .f32⟩
  | 6 => ⟨S128x256, .f32⟩
  | 7 => ⟨S128, .f32⟩
  | 8 => ⟨S128, .f32⟩
  | 9 => ⟨S128, .f32⟩
  | 10 => ⟨S128x128, .f32⟩
  | 11 => ⟨S128x128, .f32⟩
  | 12 => ⟨S128x1, .f32⟩
  | 13 => ⟨S128, .f32⟩
  | 14 => ⟨S8x256x128, .f32⟩
  | 15 => ⟨S8x256x1x128, .f32⟩
  | 16 => ⟨S8x256x128, .f32⟩
  | 17 => ⟨S8x1x256x128, .f32⟩
  | 18 => ⟨S8x256x256x128, .f32⟩
  | 19 => ⟨S8x256x256x128, .f32⟩
  | 20 => ⟨S8x256x256x128, .f32⟩
  | 21 => ⟨S8x256x256x1, .f32⟩
  | 22 => ⟨S1x1x1x128, .f32⟩
  | 23 => ⟨S8x256x256x128, .f32⟩
  | 24 => ⟨S8x256x256x128, .f32⟩
  | 25 => ⟨S8x256x256x128, .f32⟩
  | 26 => ⟨S8x256x256x128, .f32⟩
  | 27 => ⟨S1x1x1x128, .f32⟩
  | 28 => ⟨S8x256x256x128, .f32⟩
  | 29 => ⟨S8x256x256x128, .f32⟩
  | 30 => ⟨S_, .f32⟩
  | 31 => ⟨S8x256x256, .f32⟩
  | 32 => ⟨S8x256x256x1, .f32⟩
  | 33 => ⟨S_, .f32⟩
  | 34 => ⟨S8x256x256x1, .f32⟩
  | 35 => ⟨S8x256x256x1, .f32⟩
  | 36 => ⟨S8x256x256x128, .f32⟩
  | 37 => ⟨S8x256x256x128, .f32⟩
  | 38 => ⟨S8x256x256x128, .f32⟩
  | 39 => ⟨S_, .f32⟩
  | 40 => ⟨S8x256x256, .f32⟩
  | 41 => ⟨S8x256x256x1, .f32⟩
  | 42 => ⟨S_, .f32⟩
  | 43 => ⟨S8x256x256x1, .f32⟩
  | 44 => ⟨S8x256x256x1, .f32⟩
  | 45 => ⟨S8x256x256x128, .f32⟩
  | 46 => ⟨S8x256x256x128, .f32⟩
  | 47 => ⟨S_, .f32⟩
  | 48 => ⟨S8x256x256x1, .f32⟩
  | 49 => ⟨S8x256x256x1, .f32⟩
  | 50 => ⟨S8x256x256x1, .f32⟩
  | 51 => ⟨S8x256x256x128, .f32⟩
  | 52 => ⟨S8x256x256x128, .f32⟩
  | 53 => ⟨S1x1x1x128, .f32⟩
  | 54 => ⟨S8x256x256x128, .f32⟩
  | 55 => ⟨S8x256x256x128, .f32⟩
  | 56 => ⟨S1x1x1x128, .f32⟩
  | 57 => ⟨S8x256x256x128, .f32⟩
  | 58 => ⟨S8x256x256x128, .f32⟩
  | 59 => ⟨S8x256x256x128, .f32⟩
  | 60 => ⟨S8x256x256x128, .f32⟩
  | 61 => ⟨S_, .f32⟩
  | 62 => ⟨S8x256x256x128, .f32⟩
  | 63 => ⟨S8x256x256x128, .f32⟩
  | 64 => ⟨S_, .f32⟩
  | 65 => ⟨S8x256x256x128, .f32⟩
  | 66 => ⟨S8x256x256x128, .f32⟩
  | 67 => ⟨S8x256x256x128, .f32⟩
  | 68 => ⟨S256, .i32⟩
  | 69 => ⟨S_, .f32⟩
  | 70 => ⟨S8x256x128, .f32⟩
  | 71 => ⟨S_, .i32⟩
  | 72 => ⟨S256, .i32⟩
  | 73 => ⟨S256, .i1⟩
  | 74 => ⟨S_, .i32⟩
  | 75 => ⟨S256, .i32⟩
  | 76 => ⟨S256, .i32⟩
  | 77 => ⟨S256, .i32⟩
  | 78 => ⟨S_, .i32⟩
  | 79 => ⟨S256, .i32⟩
  | 80 => ⟨S256, .i1⟩
  | 81 => ⟨S_, .i32⟩
  | 82 => ⟨S256, .i32⟩
  | 83 => ⟨S256, .i32⟩
  | 84 => ⟨S256, .i32⟩
  | 85 => ⟨S256x1, .i32⟩
  | 86 => ⟨S256x1, .i32⟩
  | 87 => ⟨S256x2, .i32⟩
  | 88 => ⟨S8x256x128, .f32⟩
  | 89 => ⟨S8x256x128, .f32⟩
  | 90 => ⟨S128x128, .f32⟩
  | 91 => ⟨S8x256x128, .f32⟩
  | 92 => ⟨S128x128, .f32⟩
  | 93 => ⟨S8x256x128, .f32⟩
  | 94 => ⟨S8x256x128, .f32⟩
  | 95 => ⟨S1x1x128, .f32⟩
  | 96 => ⟨S8x256x128, .f32⟩
  | 97 => ⟨S8x256x128, .f32⟩
  | 98 => ⟨S_, .f32⟩
  | 99 => ⟨S8x256, .f32⟩
  | 100 => ⟨S8x256x1, .f32⟩
  | 101 => ⟨S_, .f32⟩
  | 102 => ⟨S8x256x1, .f32⟩
  | 103 => ⟨S8x256x1, .f32⟩
  | 104 => ⟨S8x256x128, .f32⟩
  | 105 => ⟨S8x256x128, .f32⟩
  | 106 => ⟨S8x256x128, .f32⟩
  | 107 => ⟨S_, .f32⟩
  | 108 => ⟨S8x256, .f32⟩
  | 109 => ⟨S8x256x1, .f32⟩
  | 110 => ⟨S_, .f32⟩
  | 111 => ⟨S8x256x1, .f32⟩
  | 112 => ⟨S8x256x1, .f32⟩
  | 113 => ⟨S8x256x128, .f32⟩
  | 114 => ⟨S8x256x128, .f32⟩
  | 115 => ⟨S_, .f32⟩
  | 116 => ⟨S8x256x1, .f32⟩
  | 117 => ⟨S8x256x1, .f32⟩
  | 118 => ⟨S8x256x1, .f32⟩
  | 119 => ⟨S8x256x128, .f32⟩
  | 120 => ⟨S8x256x128, .f32⟩
  | 121 => ⟨S1x1x128, .f32⟩
  | 122 => ⟨S8x256x128, .f32⟩
  | 123 => ⟨S8x256x128, .f32⟩
  | 124 => ⟨S1x1x128, .f32⟩
  | 125 => ⟨S8x256x128, .f32⟩
  | 126 => ⟨S8x256x128, .f32⟩
  | 127 => ⟨S8x256x128, .f32⟩
  | _ => ⟨S8x256x128, .f32⟩

abbrev hbmTy0_1 (i : Nat) : BufTy := match i % 128 with
  | 0 => ⟨S8x256x128, .f32⟩
  | 1 => ⟨S_, .f32⟩
  | 2 => ⟨S8x256x128, .f32⟩
  | 3 => ⟨S8x256x128, .f32⟩
  | 4 => ⟨S_, .f32⟩
  | 5 => ⟨S8x256x128, .f32⟩
  | 6 => ⟨S8x256x128, .f32⟩
  | 7 => ⟨S8x256x128, .f32⟩
  | 8 => ⟨S8x256x128, .f32⟩
  | _ => ⟨S8x256x128, .f32⟩

abbrev hbmTy (i : Nat) : BufTy := match i / 128 with
  | 0 => hbmTy0_0 i
  | 1 => hbmTy0_1 i
  | _ => ⟨S8x256x128, .f32⟩

abbrev bufTy : (tb : Table) → Fin (tcTables nBuf tb) → BufTy
  | .hbm, ⟨i, _⟩ => hbmTy i
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v44 : Ref sig .tc := ⟨.hbm, 67, rfl⟩
abbrev main_v45 : Ref sig .tc := ⟨.hbm, 68, rfl⟩
abbrev main_cst_4 : Ref sig .tc := ⟨.hbm, 69, rfl⟩
abbrev main_v46 : Ref sig .tc := ⟨.hbm, 70, rfl⟩
abbrev main_c : Ref sig .tc := ⟨.hbm, 71, rfl⟩
abbrev main_v47 : Ref sig .tc := ⟨.hbm, 72, rfl⟩
abbrev main_v48 : Ref sig .tc := ⟨.hbm, 73, rfl⟩
abbrev main_c_5 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_6 : Ref sig .tc := ⟨.hbm, 78, rfl⟩
abbrev main_v52 : Ref sig .tc := ⟨.hbm, 79, rfl⟩
abbrev main_v53 : Ref sig .tc := ⟨.hbm, 80, rfl⟩
abbrev main_c_7 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_8 : Ref sig .tc := ⟨.hbm, 98, rfl⟩
abbrev main_v70 : Ref sig .tc := ⟨.hbm, 99, rfl⟩
abbrev main_v71 : Ref sig .tc := ⟨.hbm, 100, rfl⟩
abbrev main_cst_9 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_10 : Ref sig .tc := ⟨.hbm, 107, rfl⟩
abbrev main_v77 : Ref sig .tc := ⟨.hbm, 108, rfl⟩
abbrev main_v78 : Ref sig .tc := ⟨.hbm, 109, rfl⟩
abbrev main_cst_11 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_12 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_call1_v0 : Ref sig .tc := ⟨.hbm, 127, rfl⟩
abbrev main_call1_v1 : Ref sig .tc := ⟨.hbm, 128, rfl⟩
abbrev main_call1_cst : Ref sig .tc := ⟨.hbm, 129, rfl⟩
abbrev main_call1_v2 : Ref sig .tc := ⟨.hbm, 130, rfl⟩
abbrev main_call1_v3 : Ref sig .tc := ⟨.hbm, 131, rfl⟩
abbrev main_call1_cst_0 : Ref sig .tc := ⟨.hbm, 132, rfl⟩
abbrev main_call1_v4 : Ref sig .tc := ⟨.hbm, 133, rfl⟩
abbrev main_call1_v5 : Ref sig .tc := ⟨.hbm, 134, rfl⟩
abbrev main_v94 : Ref sig .tc := ⟨.hbm, 135, rfl⟩
abbrev main_v95 : Ref sig .tc := ⟨.hbm, 136, rfl⟩

abbrev nD : Nat := 1
abbrev τ : Topo := Topo.v7x

variable {F : FTy → Type} [FloatOps F]

class Facts₀ : Prop where
  slices_S128x257_S128x128_0_0 : S128x257.Slices ![0, 0] S128x128
  slices_S128x257_S128x128_0_128 : S128x257.Slices ![0, 128] S128x128
  slices_S128x257_S128x1_0_256 : S128x257.Slices ![0, 256] S128x1
  shapeCasts_S128x1_S128 : S128x1.ShapeCasts S128
  bcast_S8x256x128_S8x256x1x128_0_1_3 : S8x256x128.BroadcastsInDim S8x256x1x128 (![0, 1, 3] : Fin 3 → Fin S8x256x1x128.rank)
  bcast_S8x256x128_S8x1x256x128_0_2_3 : S8x256x128.BroadcastsInDim S8x1x256x128 (![0, 2, 3] : Fin 3 → Fin S8x1x256x128.rank)
  bcast_S8x256x1x128_S8x256x256x128_0_1_2_3 : S8x256x1x128.BroadcastsInDim S8x256x256x128 (![0, 1, 2, 3] : Fin 4 → Fin S8x256x256x128.rank)
  bcast_S8x1x256x128_S8x256x256x128_0_1_2_3 : S8x1x256x128.BroadcastsInDim S8x256x256x128 (![0, 1, 2, 3] : Fin 4 → Fin S8x256x256x128.rank)
  bcast_S8x256x256_S8x256x256x1_0_1_2 : S8x256x256.BroadcastsInDim S8x256x256x1 (![0, 1, 2] : Fin 3 → Fin S8x256x256x1.rank)
  bcast_S128_S1x1x1x128_3 : S128.BroadcastsInDim S1x1x1x128 (![3] : Fin 1 → Fin S1x1x1x128.rank)
  bcast_S8x256x256x1_S8x256x256x128_0_1_2_3 : S8x256x256x1.BroadcastsInDim S8x256x256x128 (![0, 1, 2, 3] : Fin 4 → Fin S8x256x256x128.rank)
  bcast_S1x1x1x128_S8x256x256x128_0_1_2_3 : S1x1x1x128.BroadcastsInDim S8x256x256x128 (![0, 1, 2, 3] : Fin 4 → Fin S8x256x256x128.rank)
  reducesTo_S8x256x256x128_S8x256x256_d3 : S8x256x256x128.ReducesTo [3] S8x256x256
  h_S_ : 0 < S_.numel
  bcast_S_S8x256x256x1 : S_.BroadcastsInDim S8x256x256x1 (![] : Fin 0 → Fin S8x256x256x1.rank)
  bcast_S_S8x256x256x128 : S_.BroadcastsInDim S8x256x256x128 (![] : Fin 0 → Fin S8x256x256x128.rank)
  reducesTo_S8x256x256x128_S8x256x128_d2 : S8x256x256x128.ReducesTo [2] S8x256x128
  bcast_S_S256 : S_.BroadcastsInDim S256 (![] : Fin 0 → Fin S256.rank)
  bcast_S256_S256x1_0 : S256.BroadcastsInDim S256x1 (![0] : Fin 1 → Fin S256x1.rank)
  concatenates_S256x1_S256x1_S256x2_d1 : Shape.Concatenates [S256x1, S256x1] S256x2 1
  slices_S128x256_S128x128_0_0 : S128x256.Slices ![0, 0] S128x128
  slices_S128x256_S128x128_0_128 : S128x256.Slices ![0, 128] S128x128
  bcast_S128_S1x1x128_2 : S128.BroadcastsInDim S1x1x128 (![2] : Fin 1 → Fin S1x1x128.rank)
  bcast_S1x1x128_S8x256x128_0_1_2 : S1x1x128.BroadcastsInDim S8x256x128 (![0, 1, 2] : Fin 3 → Fin S8x256x128.rank)
  reducesTo_S8x256x128_S8x256_d2 : S8x256x128.ReducesTo [2] S8x256
  bcast_S8x256_S8x256x1_0_1 : S8x256.BroadcastsInDim S8x256x1 (![0, 1] : Fin 2 → Fin S8x256x1.rank)
  bcast_S_S8x256x1 : S_.BroadcastsInDim S8x256x1 (![] : Fin 0 → Fin S8x256x1.rank)
  bcast_S8x256x1_S8x256x128_0_1_2 : S8x256x1.BroadcastsInDim S8x256x128 (![0, 1, 2] : Fin 3 → Fin S8x256x128.rank)
  bcast_S_S8x256x128 : S_.BroadcastsInDim S8x256x128 (![] : Fin 0 → Fin S8x256x128.rank)
  dot_S8x256x128_S128x128_S8x256x128_2_1_01_0_n_n_wf : DotDims.WF S8x256x128 S128x128 S8x256x128 [2] [1] [0, 1] [0] [] []
  gather_S8x256x256x128_S256x2_S8x256x128_02_12_n_n_12_1_811128_wf : GatherDims.WF S8x256x256x128 S256x2 S8x256x128 [0, 2] [1, 2] [] [1, 2] [] 1 ![8, 1, 1, 128]

variable [Facts₀]

def dot_S8x256x128_S128x128_S8x256x128_2_1_01_0_n_n : DotDims S8x256x128 S128x128 S8x256x128 where
  lhsContracting := [2]
  rhsContracting := [1]
  lhsNonContracting := [0, 1]
  rhsNonContracting := [0]
  lhsBatch := []
  rhsBatch := []
  wf := dot_S8x256x128_S128x128_S8x256x128_2_1_01_0_n_n_wf
def gather_S8x256x256x128_S256x2_S8x256x128_02_12_n_n_12_1_811128 : GatherDims S8x256x256x128 S256x2 S8x256x128 where
  offsetDims := [0, 2]
  collapsedSliceDims := [1, 2]
  operandBatchingDims := []
  startIndicesBatchingDims := []
  startIndexMap := [1, 2]
  indexVectorDim := 1
  sliceSizes := ![8, 1, 1, 128]
  wf := gather_S8x256x256x128_S256x2_S8x256x128_02_12_n_n_12_1_811128_wf

class Facts : Prop extends Facts₀ where

variable [Facts]
-- ==== Proof.PayloadB.lean ====
/-
  What one grid point writes, as one pure term of the fourteen input blocks it loads: the kernel body's
  arithmetic, composed from the generated skeleton's named pieces in the order the body computes them.
  x0 … x13 are the blocks of the fourteen input windows in operand order: the 64 target rows, all 256 rows of
  the same batch entry, the tile of edge weights, the two transposed message weights, the edge direction, the
  message bias, gain and shift, the two transposed update weights, the update bias, gain and shift.
-/
import proofs.«117897_j42099269435680_2_alg».proof.Proof.Gen.Kernel.Skeleton

noncomputable section

namespace Cert.Kernel.Hand

open Idealize.ShloMosaic Idealize.SL.Sem Cert.Kernel Cert.Kernel.Gen

variable {F : FTy → Type} [FloatOps F]

/-- The first row of the tile in the whole array, as the body computes it from the grid coordinate: 64 times
    the second coordinate. -/
def rowStart (i : grid0.Coords) : BitVec 32 := Scalar.muli (BitVec.ofNat 32 (i 1).val) 64#32

/-- The block stored into the output window at grid point i. -/
def body (i : grid0.Coords) (x0 : Vec F S1x64x128 .f32) (x1 : Vec F S1x256x128 .f32) (x2 : Vec F S1x64x256 .f32)
    (x3 x4 : Vec F S128x128 .f32) (x5 x6 x7 x8 : Vec F S1x128 .f32) (x9 x10 : Vec F S128x128 .f32)
    (x11 x12 x13 : Vec F S1x128 .f32) : FVec F S1x64x128 .f32 :=
  k0_pay1 (k0_pay2 x0) (k0_pay14 x12) (k0_pay15 x13)
    (k0_pay16 (k0_pay2 x0)
      (k0_pay10 (k0_pay3 x2) (k0_pay5 x5) (k0_pay6 x7) (k0_pay7 x8) (k0_pay9 x0 x1 x3 x4 x6))
      (k0_pay11 (rowStart i) (k0_pay2 x0) (k0_pay3 x2) (k0_pay4 x4) (k0_pay5 x5) (k0_pay8 x0 x3 x6))
      (k0_pay12 (k0_pay6 x7)) (k0_pay13 (k0_pay7 x8)) x9 x10)
    (k0_pay17 x11)

end Cert.Kernel.Hand

end
-- ==== Proof.LibFrameShared.lean ====
/-
  A frame run for a kernel region whose input windows may share an array.

  The pipeline library's frame run asks that the windows' arrays be pairwise distinct, so that each array's
  buffer is handed to its one window whole. When one array is passed to a kernel through several input windows
  the launch instead asks how the array's buffer, held whole at the region's entry, is divided among the windows
  on it. This module states the frame run in that generality: everything the distinct-arrays run takes, except
  that the certificate supplies that division (the entailment from the distinct buffers behind the arrays, each
  whole, to the windows' arrays at the proof data's shares). The region invariant is the scoped rest alone: a body
  that neither draws random numbers nor keeps a scratch between points needs nothing else. The conclusion is the
  library's frame post: every windowed array ends at what the proof data compute, every other unscoped buffer as
  the region found it.
-/
import Idealize.ShloMosaic.Lib.Pipeline.Frame

noncomputable section

namespace Cert.LibFrameShared

open Idealize.ShloMosaic Idealize.ShloMosaic.Pipeline
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.TcCoe
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run of one kernel region whose windows may share arrays: from the body obligation at every point,
    the program's shape up to the region, the division of the arrays' buffers among the windows at entry, and a
    region invariant that is the scoped rest, every weakly fair execution terminates in the library's frame post. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, arrBufs (cfgs p).spec c (V c) ⊢ (dats p c).arrays ((dats p c).arrAt · 0))
    (hΦ : ∀ c t, (dats p c).Φ t
      = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g)
      (FramePost cfgs dats p V) :=
  θ_run_region_noSem_shared cfgs dats () hinj p hw emb₁ defs₀ 𝒱₀ m g main hbody hne harr hstage howed
    (u₀ := initOf (cells cfgs hinj) (launchToks cfgs hinj)) (hu₀ := .rfl) (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H; isplitr; · iempintro
      iexact H)
    (hin := fun c => by
      rw [hΦ]; iintro ⟨-, H⟩; iexact H)
    (hout := fun c => by
      rw [hΦ]; iintro H; isplitr; · iempintro
      iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.LibFrameShared

end
-- ==== Proof.FrameB.lean ====
/-
  The frame of the kernel program: it runs to the end, nothing faults, and its ten argument arrays end as they
  began — together with what the result array holds at the end, window by window.

  The program is a stretch of host operations (slices, transposes and reshapes of the weights), then one kernel
  region over a grid of 8 × 4 points, fifteen windows. The node-feature array is handed to the kernel twice — a
  64-row tile of it and all 256 rows of the same batch entry — so two input windows share one array; its buffer,
  held whole at the region's entry, is divided between them half and half. The body loads its fourteen input
  blocks whole, computes, and stores the output block whole; nothing is kept between points. So the proof data
  say: each input window's buffer holds its block of its array at every point, and the output window's buffer
  holds the body's function of those blocks.
-/
import proofs.«117897_j42099269435680_2_alg».proof.Proof.Gen.Kernel.Launch
import proofs.«117897_j42099269435680_2_alg».proof.Proof.Gen.Kernel.Skeleton
import proofs.«117897_j42099269435680_2_alg».proof.Proof.Gen.Kernel.Points
import proofs.«117897_j42099269435680_2_alg».proof.Proof.PayloadB
import proofs.«117897_j42099269435680_2_alg».proof.Proof.LibFrameShared
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core c's buffers when the region is entered: the launch contents after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block of the array at every point, fetched there or not: the window is
    never cut and never idle, and where it is not fetched its block index has not moved. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block of the array at every point, fetched there or not: the window is
    never cut and never idle, and where it is not fetched its block index has not moved. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block of the array at every point, fetched there or not: the window is
    never cut and never idle, and where it is not fetched its block index has not moved. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block of the array at every point, fetched there or not: the window is
    never cut and never idle, and where it is not fetched its block index has not moved. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block of the array at every point, fetched there or not: the window is
    never cut and never idle, and where it is not fetched its block index has not moved. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block of the array at every point, fetched there or not: the window is
    never cut and never idle, and where it is not fetched its block index has not moved. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block of the array at every point, fetched there or not: the window is
    never cut and never idle, and where it is not fetched its block index has not moved. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block of the array at every point, fetched there or not: the window is
    never cut and never idle, and where it is not fetched its block index has not moved. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current buffer holds its block of the array at every point, fetched there or not: the window is
    never cut and never idle, and where it is not fetched its block index has not moved. -/
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current buffer holds its block of the array at every point, fetched there or not: the window is
    never cut and never idle, and where it is not fetched its block index has not moved. -/
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current buffer holds its block of the array at every point, fetched there or not: the window is
    never cut and never idle, and where it is not fetched its block index has not moved. -/
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current buffer holds its block of the array at every point, fetched there or not: the window is
    never cut and never idle, and where it is not fetched its block index has not moved. -/
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current buffer holds its block of the array at every point, fetched there or not: the window is
    never cut and never idle, and where it is not fetched its block index has not moved. -/
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current buffer holds its block of the array at every point, fetched there or not: the window is
    never cut and never idle, and where it is not fetched its block index has not moved. -/
theorem before_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## What the body stores -/

/-- The whole of each buffer shape, as the rectangle the body loads and stores through. -/
abbrev rA : Rect S1x64x128 := Rect.unit (s := S1x64x128) ![0, 0, 0] S1x64x128.size inb_S1x64x128_S1x64x128_0_0_0
abbrev rB : Rect S1x256x128 := Rect.unit (s := S1x256x128) ![0, 0, 0] S1x256x128.size inb_S1x256x128_S1x256x128_0_0_0
abbrev rC : Rect S1x64x256 := Rect.unit (s := S1x64x256) ![0, 0, 0] S1x64x256.size inb_S1x64x256_S1x64x256_0_0_0
abbrev rD : Rect S128x128 := Rect.unit (s := S128x128) ![0, 0] S128x128.size inb_S128x128_S128x128_0_0
abbrev rE : Rect S1x128 := Rect.unit (s := S1x128) ![0, 0] S1x128.size inb_S1x128_S1x128_0_0

/-- The output window's buffer after the body at grid point i, from the input blocks: its one store, of the
    body's function of the fourteen loads. -/
def out14 (i : grid0.Coords) (x0 : Vec F S1x64x128 .f32) (x1 : Vec F S1x256x128 .f32) (x2 : Vec F S1x64x256 .f32) (x3 : Vec F S128x128 .f32) (x4 : Vec F S128x128 .f32) (x5 : Vec F S1x128 .f32) (x6 : Vec F S1x128 .f32) (x7 : Vec F S1x128 .f32) (x8 : Vec F S1x128 .f32) (x9 : Vec F S128x128 .f32) (x10 : Vec F S128x128 .f32) (x11 : Vec F S1x128 .f32) (x12 : Vec F S1x128 .f32) (x13 : Vec F S1x128 .f32) : Vec F S1x64x128 .f32 :=
  View.canon [⟨rA, body i (View.ld x0 rA) (View.ld x1 rB) (View.ld x2 rC) (View.ld x3 rD) (View.ld x4 rD) (View.ld x5 rE) (View.ld x6 rE) (View.ld x7 rE) (View.ld x8 rE) (View.ld x9 rD) (View.ld x10 rD) (View.ld x11 rE) (View.ld x12 rE) (View.ld x13 rE)⟩]

/-- The one store covers the buffer. -/
theorem cover14 (p0 : Vec F S1x64x128 .f32) (y : S1x64x128.Idx) :
    ∃ pc ∈ ([⟨rA, p0⟩] : List (View.Piece (Elt F) S1x64x128 .f32)), y ∈ pc.1.set :=
  View.cover_of_tiled [⟨rA, p0⟩] S1x64x128.size (by rfl) y

/-! ## The body's triple -/

set_option maxHeartbeats 4000000 in
/-- The body on whole staging buffers, the inputs' at contents x0 … x13 and the output's at anything, runs to the
    continuation holding the inputs' as they were and the output's at out14 of the inputs'. -/
theorem sound_kernel (c : Dev nD) (E : Set ℕ) (i : grid0.Coords) (arg2 : Memref sig .tc .vmem S1x64x128 .f32) (harg2 : arg2.IsWhole) (arg3 : Memref sig .tc .vmem S1x256x128 .f32) (harg3 : arg3.IsWhole) (arg4 : Memref sig .tc .vmem S1x64x256 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x64x128 .f32) (harg16 : arg16.IsWhole)
    (x0 : Vec F S1x64x128 .f32) (x1 : Vec F S1x256x128 .f32) (x2 : Vec F S1x64x256 .f32) (x3 : Vec F S128x128 .f32) (x4 : Vec F S128x128 .f32) (x5 : Vec F S1x128 .f32) (x6 : Vec F S1x128 .f32) (x7 : Vec F S1x128 .f32) (x8 : Vec F S1x128 .f32) (x9 : Vec F S128x128 .f32) (x10 : Vec F S128x128 .f32) (x11 : Vec F S1x128 .f32) (x12 : Vec F S1x128 .f32) (x13 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (out14 i x0 x1 x2 x3 x4 x5 x6 x7 x8 x9 x10 x11 x12 x13)) -∗ K ⟨⟩))
      ⊢ wp frame (wpE (defs₀ (F := F)) Variants.none c none) E (cc0__gnn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__gnn_kernel_eq_skeleton]; unfold cc0__gnn_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover14 _)

/-! ## The proof data -/

/-- On core c: the arrays as the region finds them; after the body at point t each input's buffer at its block and
    the output's at out14 of the input blocks; the invariant the scoped rest; nothing owed; the node-feature array's
    buffer half to the tile window and half to the all-rows window, every other array whole to its window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = out14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d
theorem before_13 (c : Dev nD) (t : Fin cfg0.N) (d) : (dats m 0 c).before 13 t d = iblk m c 13 t :=
  before_13_of m (dats m 0 c) (A_eq m c 13) (after_13 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 2000000 in
/-- At any point the inputs' buffers hold their blocks, so the body's triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.FrameRunB.lean ====
/-
  The run of the kernel program from its frame module's proof data: how the arrays' buffers are divided among the
  windows at the region's entry, the launch, and from its post the frame claim and the result array's contents.
-/
import proofs.«117897_j42099269435680_2_alg».proof.Proof.FrameB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows' arrays, each a whole buffer, as points-tos of the buffers behind them at the proof data's shares. -/
theorem arrays_eq_shares (c : Dev nD) (A : (w : Fin cfg0.W) → Buf (Elt F) ((cfg0.win w).arr.view.loc (c : Thread nD τ))) :
    (dats m 0 c).arrays A
      = bigSep Finset.univ fun w : Fin cfg0.W => (((c : Thread nD τ).loc (Pipeline.arrRef spec0 w)) ↦{(dats m 0 c).share w} A w : sProp 𝕄) := by
  unfold Dat.arrays
  exact bigSep_congr fun w _ => by rw [(arr_whole0 w).set_eq_univ]

/-- At the region's entry the fourteen distinct buffers behind the fifteen windows' arrays, each held whole, make
    the windows' arrays at the proof data's shares: the node-feature array's buffer is split in two halves, one for
    the tile window and one for the all-rows window; every other buffer goes to its one window whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_eq_shares]
  unfold Pipeline.arrBufs
  rw [bigSep_eq_bigSepL_of_eq [main_arg0, main_arg1, main_v5, main_v6, main_v4, main_v11, main_v12, main_v13, main_v9, main_v10, main_v14, main_v15, main_v16, main_v17] (by decide) (by decide), bigSep_W0]
  refine (show (iprop((((c : Thread nD τ).loc main_arg0) ↦{fullShare} V m c main_arg0) ∗ (((c : Thread nD τ).loc main_arg1) ↦{fullShare} V m c main_arg1) ∗ (((c : Thread nD τ).loc main_v5) ↦{fullShare} V m c main_v5) ∗ (((c : Thread nD τ).loc main_v6) ↦{fullShare} V m c main_v6) ∗ (((c : Thread nD τ).loc main_v4) ↦{fullShare} V m c main_v4) ∗ (((c : Thread nD τ).loc main_v11) ↦{fullShare} V m c main_v11) ∗ (((c : Thread nD τ).loc main_v12) ↦{fullShare} V m c main_v12) ∗ (((c : Thread nD τ).loc main_v13) ↦{fullShare} V m c main_v13) ∗ (((c : Thread nD τ).loc main_v9) ↦{fullShare} V m c main_v9) ∗ (((c : Thread nD τ).loc main_v10) ↦{fullShare} V m c main_v10) ∗ (((c : Thread nD τ).loc main_v14) ↦{fullShare} V m c main_v14) ∗ (((c : Thread nD τ).loc main_v15) ↦{fullShare} V m c main_v15) ∗ (((c : Thread nD τ).loc main_v16) ↦{fullShare} V m c main_v16) ∗ (((c : Thread nD τ).loc main_v17) ↦{fullShare} V m c main_v17)) : sProp 𝕄) ⊢ _ from ?_)
  iintro ⟨H0, H1, H2, H3, H4, H5, H6, H7, H8, H9, H10, H11, H12, H13⟩
  ihave Hs := (pointsTo_share (PosShare.mem_left_op_right fullShare)).1 $$ H0
  icases Hs with ⟨Ha, Hb⟩
  isplitl [Ha]; · iexact Ha
  isplitl [Hb]; · iexact Hb
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

set_option backward.isDefEq.respectTransparency.types false in
/-- Every weakly fair execution of the program terminates, and every final state has every windowed array at what
    the proof data compute and every other unscoped buffer as the region found it. -/
theorem run_main : θ_run defs (onTc (τ := τ) (main (F := F))) (s₀ m ρ) (Pipeline.FramePost cfgs (dats m) 0 (V m)) :=
  Cert.LibFrameShared.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- The run with the result array named and the ten argument arrays unchanged: the two arrays the kernel windows
    are inputs, never written; the other eight bypass the region and no host operation writes them. -/
theorem run_named : θ_run defs (onTc (τ := τ) (main (F := F))) ⟨m, fun _ => 0, ρ⟩ (fun r => ∀ c : Dev nD,
      r.2.mem ((c.tc : Thread nD τ).loc main_v17) = (dats m 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1 14,
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 rfl (by decide))).trans (V_main_arg2 m c),
      ((h c).2 main_arg3 (Pipeline.mem_restRefs_of main_arg3 rfl (by decide))).trans (V_main_arg3 m c),
      ((h c).2 main_arg4 (Pipeline.mem_restRefs_of main_arg4 rfl (by decide))).trans (V_main_arg4 m c),
      ((h c).2 main_arg5 (Pipeline.mem_restRefs_of main_arg5 rfl (by decide))).trans (V_main_arg5 m c),
      ((h c).2 main_arg6 (Pipeline.mem_restRefs_of main_arg6 rfl (by decide))).trans (V_main_arg6 m c),
      ((h c).2 main_arg7 (Pipeline.mem_restRefs_of main_arg7 rfl (by decide))).trans (V_main_arg7 m c),
      ((h c).2 main_arg8 (Pipeline.mem_restRefs_of main_arg8 rfl (by decide))).trans (V_main_arg8 m c),
      ((h c).2 main_arg9 (Pipeline.mem_restRefs_of main_arg9 rfl (by decide))).trans (V_main_arg9 m c)⟩) (run_main m ρ)

/-- The frame claim's post. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_named m ρ)

end Cert.Kernel.Hand

end
-- ==== Proof.PayloadI.lean ====
/-
  What one grid point writes, as one pure term of the fourteen input blocks it loads: the kernel body's
  arithmetic, composed from the generated skeleton's named pieces in the order the body computes them.
  x0 … x13 are the blocks of the fourteen input windows in operand order: the 64 target rows, all 256 rows of
  the same batch entry, the tile of edge weights, the two transposed message weights, the edge direction, the
  message bias, gain and shift, the two transposed update weights, the update bias, gain and shift.
-/
import proofs.«117897_j42099269435680_2_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F]

/-- The first row of the tile in the whole array, as the body computes it from the grid coordinate: 64 times
    the second coordinate. -/
def rowStart (i : grid0.Coords) : BitVec 32 := Scalar.muli (BitVec.ofNat 32 (i 1).val) 64#32

/-- The block stored into the output window at grid point i. -/
def body (i : grid0.Coords) (x0 : Vec F S1x64x128 .f32) (x1 : Vec F S1x256x128 .f32) (x2 : Vec F S1x64x256 .f32)
    (x3 x4 : Vec F S128x128 .f32) (x5 x6 x7 x8 : Vec F S1x128 .f32) (x9 x10 : Vec F S128x128 .f32)
    (x11 x12 x13 : Vec F S1x128 .f32) : FVec F S1x64x128 .f32 :=
  k0_pay1 (k0_pay2 x0) (k0_pay14 x12) (k0_pay15 x13)
    (k0_pay16 (k0_pay2 x0)
      (k0_pay10 (k0_pay3 x2) (k0_pay5 x5) (k0_pay6 x7) (k0_pay7 x8) (k0_pay9 x0 x1 x3 x4 x6))
      (k0_pay11 (rowStart i) (k0_pay2 x0) (k0_pay3 x2) (k0_pay4 x4) (k0_pay5 x5) (k0_pay8 x0 x3 x6))
      (k0_pay12 (k0_pay6 x7)) (k0_pay13 (k0_pay7 x8)) x9 x10)
    (k0_pay17 x11)

end Cert.KernelIdeal.Hand

end
-- ==== Proof.FrameI.lean ====
/-
  The frame of the kernel program: it runs to the end, nothing faults, and its ten argument arrays end as they
  began — together with what the result array holds at the end, window by window.

  The program is a stretch of host operations (slices, transposes and reshapes of the weights), then one kernel
  region over a grid of 8 × 4 points, fifteen windows. The node-feature array is handed to the kernel twice — a
  64-row tile of it and all 256 rows of the same batch entry — so two input windows share one array; its buffer,
  held whole at the region's entry, is divided between them half and half. The body loads its fourteen input
  blocks whole, computes, and stores the output block whole; nothing is kept between points. So the proof data
  say: each input window's buffer holds its block of its array at every point, and the output window's buffer
  holds the body's function of those blocks.
-/
import proofs.«117897_j42099269435680_2_alg».proof.Proof.Gen.KernelIdeal.Launch
import proofs.«117897_j42099269435680_2_alg».proof.Proof.Gen.KernelIdeal.Skeleton
import proofs.«117897_j42099269435680_2_alg».proof.Proof.Gen.KernelIdeal.Points
import proofs.«117897_j42099269435680_2_alg».proof.Proof.PayloadI
import proofs.«117897_j42099269435680_2_alg».proof.Proof.LibFrameShared
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core c's buffers when the region is entered: the launch contents after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block of the array at every point, fetched there or not: the window is
    never cut and never idle, and where it is not fetched its block index has not moved. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block of the array at every point, fetched there or not: the window is
    never cut and never idle, and where it is not fetched its block index has not moved. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block of the array at every point, fetched there or not: the window is
    never cut and never idle, and where it is not fetched its block index has not moved. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block of the array at every point, fetched there or not: the window is
    never cut and never idle, and where it is not fetched its block index has not moved. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block of the array at every point, fetched there or not: the window is
    never cut and never idle, and where it is not fetched its block index has not moved. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block of the array at every point, fetched there or not: the window is
    never cut and never idle, and where it is not fetched its block index has not moved. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block of the array at every point, fetched there or not: the window is
    never cut and never idle, and where it is not fetched its block index has not moved. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block of the array at every point, fetched there or not: the window is
    never cut and never idle, and where it is not fetched its block index has not moved. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current buffer holds its block of the array at every point, fetched there or not: the window is
    never cut and never idle, and where it is not fetched its block index has not moved. -/
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current buffer holds its block of the array at every point, fetched there or not: the window is
    never cut and never idle, and where it is not fetched its block index has not moved. -/
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current buffer holds its block of the array at every point, fetched there or not: the window is
    never cut and never idle, and where it is not fetched its block index has not moved. -/
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current buffer holds its block of the array at every point, fetched there or not: the window is
    never cut and never idle, and where it is not fetched its block index has not moved. -/
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current buffer holds its block of the array at every point, fetched there or not: the window is
    never cut and never idle, and where it is not fetched its block index has not moved. -/
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current buffer holds its block of the array at every point, fetched there or not: the window is
    never cut and never idle, and where it is not fetched its block index has not moved. -/
theorem before_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## What the body stores -/

/-- The whole of each buffer shape, as the rectangle the body loads and stores through. -/
abbrev rA : Rect S1x64x128 := Rect.unit (s := S1x64x128) ![0, 0, 0] S1x64x128.size inb_S1x64x128_S1x64x128_0_0_0
abbrev rB : Rect S1x256x128 := Rect.unit (s := S1x256x128) ![0, 0, 0] S1x256x128.size inb_S1x256x128_S1x256x128_0_0_0
abbrev rC : Rect S1x64x256 := Rect.unit (s := S1x64x256) ![0, 0, 0] S1x64x256.size inb_S1x64x256_S1x64x256_0_0_0
abbrev rD : Rect S128x128 := Rect.unit (s := S128x128) ![0, 0] S128x128.size inb_S128x128_S128x128_0_0
abbrev rE : Rect S1x128 := Rect.unit (s := S1x128) ![0, 0] S1x128.size inb_S1x128_S1x128_0_0

/-- The output window's buffer after the body at grid point i, from the input blocks: its one store, of the
    body's function of the fourteen loads. -/
def out14 (i : grid0.Coords) (x0 : Vec F S1x64x128 .f32) (x1 : Vec F S1x256x128 .f32) (x2 : Vec F S1x64x256 .f32) (x3 : Vec F S128x128 .f32) (x4 : Vec F S128x128 .f32) (x5 : Vec F S1x128 .f32) (x6 : Vec F S1x128 .f32) (x7 : Vec F S1x128 .f32) (x8 : Vec F S1x128 .f32) (x9 : Vec F S128x128 .f32) (x10 : Vec F S128x128 .f32) (x11 : Vec F S1x128 .f32) (x12 : Vec F S1x128 .f32) (x13 : Vec F S1x128 .f32) : Vec F S1x64x128 .f32 :=
  View.canon [⟨rA, body i (View.ld x0 rA) (View.ld x1 rB) (View.ld x2 rC) (View.ld x3 rD) (View.ld x4 rD) (View.ld x5 rE) (View.ld x6 rE) (View.ld x7 rE) (View.ld x8 rE) (View.ld x9 rD) (View.ld x10 rD) (View.ld x11 rE) (View.ld x12 rE) (View.ld x13 rE)⟩]

/-- The one store covers the buffer. -/
theorem cover14 (p0 : Vec F S1x64x128 .f32) (y : S1x64x128.Idx) :
    ∃ pc ∈ ([⟨rA, p0⟩] : List (View.Piece (Elt F) S1x64x128 .f32)), y ∈ pc.1.set :=
  View.cover_of_tiled [⟨rA, p0⟩] S1x64x128.size (by rfl) y

/-! ## The body's triple -/

set_option maxHeartbeats 4000000 in
/-- The body on whole staging buffers, the inputs' at contents x0 … x13 and the output's at anything, runs to the
    continuation holding the inputs' as they were and the output's at out14 of the inputs'. -/
theorem sound_kernel (c : Dev nD) (E : Set ℕ) (i : grid0.Coords) (arg2 : Memref sig .tc .vmem S1x64x128 .f32) (harg2 : arg2.IsWhole) (arg3 : Memref sig .tc .vmem S1x256x128 .f32) (harg3 : arg3.IsWhole) (arg4 : Memref sig .tc .vmem S1x64x256 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x64x128 .f32) (harg16 : arg16.IsWhole)
    (x0 : Vec F S1x64x128 .f32) (x1 : Vec F S1x256x128 .f32) (x2 : Vec F S1x64x256 .f32) (x3 : Vec F S128x128 .f32) (x4 : Vec F S128x128 .f32) (x5 : Vec F S1x128 .f32) (x6 : Vec F S1x128 .f32) (x7 : Vec F S1x128 .f32) (x8 : Vec F S1x128 .f32) (x9 : Vec F S128x128 .f32) (x10 : Vec F S128x128 .f32) (x11 : Vec F S1x128 .f32) (x12 : Vec F S1x128 .f32) (x13 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (out14 i x0 x1 x2 x3 x4 x5 x6 x7 x8 x9 x10 x11 x12 x13)) -∗ K ⟨⟩))
      ⊢ wp frame (wpE (defs₀ (F := F)) Variants.none c none) E (cc0__gnn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__gnn_kernel_eq_skeleton]; unfold cc0__gnn_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover14 _)

/-! ## The proof data -/

/-- On core c: the arrays as the region finds them; after the body at point t each input's buffer at its block and
    the output's at out14 of the input blocks; the invariant the scoped rest; nothing owed; the node-feature array's
    buffer half to the tile window and half to the all-rows window, every other array whole to its window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = out14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d
theorem before_13 (c : Dev nD) (t : Fin cfg0.N) (d) : (dats m 0 c).before 13 t d = iblk m c 13 t :=
  before_13_of m (dats m 0 c) (A_eq m c 13) (after_13 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 2000000 in
/-- At any point the inputs' buffers hold their blocks, so the body's triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.Spec.lean ====
/-
  The mathematics both programs compute, over the extended reals, stated once.

  One message-passing step on a graph of 256 nodes with 128 features, for each of 8 batch entries. For a target
  node i and a source node j the pre-activation is the sum of a projection of the target's features, a projection
  of the source's features, the edge weight times a fixed direction, and a bias; it is layer-normalised over the
  128 features, passed through x * logistic x, and summed over all sources j except j = i (as the full sum minus
  the diagonal term). The aggregate and the node's own features are projected, biased, layer-normalised, passed
  through x * logistic x again, and added to the node's features.

  The array-level function is out / G; the per-tile functions (names starting with t) say the same for the 64
  target rows one grid point handles, with the bias added to the target projection first and the diagonal term
  recomputed from the tile's own rows, which is how the kernel arranges it.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- 128, the number of features, as the f32 word both programs divide by. -/
abbrev c128 : EReal := Ideal.ofBits .f32 0x43000000#32
/-- The layer norm's epsilon, as the f32 word both programs add. -/
abbrev eps : EReal := Ideal.ofBits .f32 0x3727C5AC#32

/-- The mean of a row of 128 entries: their sum divided by 128. -/
def mean (x : Fin 128 → EReal) : EReal := Ideal.div (∑ e, x e) c128

/-- Layer normalisation of a row: centre, scale by the reciprocal square root of the variance plus epsilon,
    then the learned gain and shift. -/
def lnorm (x g β : Fin 128 → EReal) (e : Fin 128) : EReal :=
  (x e - mean x) * Ideal.rsqrt (mean (fun e' => (x e' - mean x) * (x e' - mean x)) + eps) * g e + β e

/-- x times the logistic function of x. -/
def silu (y : EReal) : EReal := y * Ideal.logistic y

section Whole

variable (h : Fin 8 → Fin 256 → Fin 128 → EReal) (adj : Fin 8 → Fin 256 → Fin 256 → EReal)
  (Wm : Fin 128 → Fin 257 → EReal) (bm gm βm : Fin 128 → EReal)
  (Wu : Fin 128 → Fin 256 → EReal) (bu gu βu : Fin 128 → EReal)

/-- Column d of the message weight's first block (acting on the target). -/
abbrev colT (d : Fin 128) : Fin 257 := ⟨d.val, by have := d.isLt; omega⟩
/-- Column d of its second block (acting on the source). -/
abbrev colS (d : Fin 128) : Fin 257 := ⟨128 + d.val, by have := d.isLt; omega⟩
/-- Its last column (acting on the edge weight). -/
abbrev colJ : Fin 257 := ⟨256, by omega⟩
/-- Column d of the update weight's first block (acting on the node) and of its second (acting on the aggregate). -/
abbrev colU1 (d : Fin 128) : Fin 256 := ⟨d.val, by have := d.isLt; omega⟩
abbrev colU2 (d : Fin 128) : Fin 256 := ⟨128 + d.val, by have := d.isLt; omega⟩

def projT (b : Fin 8) (i : Fin 256) (e : Fin 128) : EReal := ∑ d : Fin 128, h b i d * Wm e (colT d)
def projS (b : Fin 8) (j : Fin 256) (e : Fin 128) : EReal := ∑ d : Fin 128, h b j d * Wm e (colS d)
def pre (b : Fin 8) (i j : Fin 256) (e : Fin 128) : EReal :=
  projT h Wm b i e + projS h Wm b j e + adj b i j * Wm e colJ + bm e
def msg (b : Fin 8) (i j : Fin 256) (e : Fin 128) : EReal := silu (lnorm (pre h adj Wm bm b i j) gm βm e)
def agg (b : Fin 8) (i : Fin 256) (e : Fin 128) : EReal :=
  (∑ j : Fin 256, msg h adj Wm bm gm βm b i j e) - msg h adj Wm bm gm βm b i i e
def updPre (b : Fin 8) (i : Fin 256) (e : Fin 128) : EReal :=
  (∑ d : Fin 128, h b i d * Wu e (colU1 d)) + (∑ d : Fin 128, agg h adj Wm bm gm βm b i d * Wu e (colU2 d)) + bu e
def out (b : Fin 8) (i : Fin 256) (e : Fin 128) : EReal :=
  h b i e + silu (lnorm (updPre h adj Wm bm gm βm Wu bu b i) gu βu e)

end Whole

/-- The result array as one function of the ten argument arrays, index by index. -/
def G (x0 : (⟨3, ![8, 256, 128]⟩ : Shape).Idx → EReal) (x1 : (⟨3, ![8, 256, 256]⟩ : Shape).Idx → EReal)
    (x2 : (⟨2, ![128, 257]⟩ : Shape).Idx → EReal) (x3 x4 x5 : (⟨1, ![128]⟩ : Shape).Idx → EReal)
    (x6 : (⟨2, ![128, 256]⟩ : Shape).Idx → EReal) (x7 x8 x9 : (⟨1, ![128]⟩ : Shape).Idx → EReal) :
    (⟨3, ![8, 256, 128]⟩ : Shape).Idx → EReal := fun j =>
  out (fun b i d => x0 (ix3 b i d)) (fun b i k => x1 (ix3 b i k)) (fun e c => x2 (ix2 e c))
    (fun e => x3 (ix1 e)) (fun e => x4 (ix1 e)) (fun e => x5 (ix1 e)) (fun e c => x6 (ix2 e c))
    (fun e => x7 (ix1 e)) (fun e => x8 (ix1 e)) (fun e => x9 (ix1 e)) (j 0) (j 1) (j 2)

section Tile

/- One grid point: 64 target rows hi (rows 64 * t1 … of the batch entry's node features), all 256 source rows
   hall of the same entry, the 64 × 256 tile adjt of edge weights, and the weights already transposed to
   (feature in, feature out). -/
variable (t1 : Fin 4) (hi : Fin 64 → Fin 128 → EReal) (hall : Fin 256 → Fin 128 → EReal)
  (adjt : Fin 64 → Fin 256 → EReal) (WtT WsT : Fin 128 → Fin 128 → EReal) (wj bm gm βm : Fin 128 → EReal)
  (Wu1T Wu2T : Fin 128 → Fin 128 → EReal) (bu gu βu : Fin 128 → EReal)

def tprojT (r : Fin 64) (e : Fin 128) : EReal := (∑ d : Fin 128, hi r d * WtT d e) + bm e
def tprojS (j : Fin 256) (e : Fin 128) : EReal := ∑ d : Fin 128, hall j d * WsT d e
def tpre (r : Fin 64) (j : Fin 256) (e : Fin 128) : EReal :=
  tprojT hi WtT bm r e + tprojS hall WsT j e + adjt r j * wj e
def tmsg (r : Fin 64) (j : Fin 256) (e : Fin 128) : EReal := silu (lnorm (tpre hi hall adjt WtT WsT wj bm r j) gm βm e)
/-- The diagonal edge weight of row r, picked out of the row by a sum against the indicator of column 64 * t1 + r. -/
def tadjDiag (r : Fin 64) : EReal := ∑ j : Fin 256, if 64 * t1.val + r.val = j.val then adjt r j else 0
def tpreDiag (r : Fin 64) (e : Fin 128) : EReal :=
  tprojT hi WtT bm r e + (∑ d : Fin 128, hi r d * WsT d e) + tadjDiag t1 adjt r * wj e
def tmsgDiag (r : Fin 64) (e : Fin 128) : EReal := silu (lnorm (tpreDiag t1 hi adjt WtT WsT wj bm r) gm βm e)
def tagg (r : Fin 64) (e : Fin 128) : EReal :=
  (∑ j : Fin 256, tmsg hi hall adjt WtT WsT wj bm gm βm r j e) - tmsgDiag t1 hi adjt WtT WsT wj bm gm βm r e
def tupd (r : Fin 64) (e : Fin 128) : EReal :=
  (∑ d : Fin 128, hi r d * Wu1T d e) + (∑ d : Fin 128, tagg t1 hi hall adjt WtT WsT wj bm gm βm r d * Wu2T d e) + bu e
def tout (r : Fin 64) (e : Fin 128) : EReal :=
  hi r e + silu (lnorm (tupd t1 hi hall adjt WtT WsT wj bm gm βm Wu1T Wu2T bu r) gu βu e)

end Tile

end Cert.Spec

end
-- ==== Proof.HostPrefixI.lean ====
/-
  What the kernel's windows find in the arrays the host operations prepare before the region: the two halves of
  each weight matrix transposed, the edge direction and the six bias, gain and shift vectors laid out as rows —
  each read at an index as an entry of an argument array.
-/
import proofs.«117897_j42099269435680_2_alg».proof.Proof.Gen.KernelIdeal.Launch
import proofs.«117897_j42099269435680_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ)

/-- Core c's buffers after the host operations that precede the region. -/
abbrev VV (c : Dev nD) (b : Ref sig .tc) : Buf (Elt F) ((c : Thread nD τ).loc b) := StableHlo.after hostOps0 (fun b => m (c, b)) b

/-- The array behind the transposed target weight: a block of columns of a weight, transposed — entry (d, e) is the weight's entry (e, column of d). -/
theorem Vv5_apply (c : Dev nD) (d e : Fin 128) :
    (VV m c main_v5 : S128x128.Idx → Elt F .f32) (ix2 d e) = (m ((c : Thread nD τ).loc main_arg2) : S128x257.Idx → Elt F .f32) (ix2 e (Cert.Spec.colT d)) := by
  have h : (VV m c main_v5 : S128x128.Idx → Elt F .f32)
      = transpose S128x128 [1, 0] (extractStridedSlice S128x128 ![0, 0] (m ((c : Thread nD τ).loc main_arg2) : S128x257.Idx → Elt F .f32) slices_S128x257_S128x128_0_0) transposes_S128x128_S128x128_1_0 := by
    dsimp only [VV, hostOps0]; after_results; try rfl
  rw [h]
  refine (transpose_apply [1, 0] _ transposes_S128x128_S128x128_1_0 (ix2 d e) (ix2 e d) (fun b => by match b with | ⟨0, _⟩ => rfl | ⟨1, _⟩ => rfl)).trans ?_
  exact extractStridedSlice_apply ![0, 0] _ slices_S128x257_S128x128_0_0 (ix2 e d) (ix2 e (Cert.Spec.colT d)) (fun a => by
    match a with
    | ⟨0, _⟩ => show e.val = 0 + e.val; omega
    | ⟨1, _⟩ => show d.val = 0 + d.val; omega)

/-- The array behind the transposed source weight: a block of columns of a weight, transposed — entry (d, e) is the weight's entry (e, column of d). -/
theorem Vv6_apply (c : Dev nD) (d e : Fin 128) :
    (VV m c main_v6 : S128x128.Idx → Elt F .f32) (ix2 d e) = (m ((c : Thread nD τ).loc main_arg2) : S128x257.Idx → Elt F .f32) (ix2 e (Cert.Spec.colS d)) := by
  have h : (VV m c main_v6 : S128x128.Idx → Elt F .f32)
      = transpose S128x128 [1, 0] (extractStridedSlice S128x128 ![0, 128] (m ((c : Thread nD τ).loc main_arg2) : S128x257.Idx → Elt F .f32) slices_S128x257_S128x128_0_128) transposes_S128x128_S128x128_1_0 := by
    dsimp only [VV, hostOps0]; after_results; try rfl
  rw [h]
  refine (transpose_apply [1, 0] _ transposes_S128x128_S128x128_1_0 (ix2 d e) (ix2 e d) (fun b => by match b with | ⟨0, _⟩ => rfl | ⟨1, _⟩ => rfl)).trans ?_
  exact extractStridedSlice_apply ![0, 128] _ slices_S128x257_S128x128_0_128 (ix2 e d) (ix2 e (Cert.Spec.colS d)) (fun a => by
    match a with
    | ⟨0, _⟩ => show e.val = 0 + e.val; omega
    | ⟨1, _⟩ => show 128 + d.val = 128 + d.val; omega)

/-- The array behind the transposed node-update weight: a block of columns of a weight, transposed — entry (d, e) is the weight's entry (e, column of d). -/
theorem Vv9_apply (c : Dev nD) (d e : Fin 128) :
    (VV m c main_v9 : S128x128.Idx → Elt F .f32) (ix2 d e) = (m ((c : Thread nD τ).loc main_arg6) : S128x256.Idx → Elt F .f32) (ix2 e (Cert.Spec.colU1 d)) := by
  have h : (VV m c main_v9 : S128x128.Idx → Elt F .f32)
      = transpose S128x128 [1, 0] (extractStridedSlice S128x128 ![0, 0] (m ((c : Thread nD τ).loc main_arg6) : S128x256.Idx → Elt F .f32) slices_S128x256_S128x128_0_0) transposes_S128x128_S128x128_1_0 := by
    dsimp only [VV, hostOps0]; after_results; try rfl
  rw [h]
  refine (transpose_apply [1, 0] _ transposes_S128x128_S128x128_1_0 (ix2 d e) (ix2 e d) (fun b => by match b with | ⟨0, _⟩ => rfl | ⟨1, _⟩ => rfl)).trans ?_
  exact extractStridedSlice_apply ![0, 0] _ slices_S128x256_S128x128_0_0 (ix2 e d) (ix2 e (Cert.Spec.colU1 d)) (fun a => by
    match a with
    | ⟨0, _⟩ => show e.val = 0 + e.val; omega
    | ⟨1, _⟩ => show d.val = 0 + d.val; omega)

/-- The array behind the transposed aggregate-update weight: a block of columns of a weight, transposed — entry (d, e) is the weight's entry (e, column of d). -/
theorem Vv10_apply (c : Dev nD) (d e : Fin 128) :
    (VV m c main_v10 : S128x128.Idx → Elt F .f32) (ix2 d e) = (m ((c : Thread nD τ).loc main_arg6) : S128x256.Idx → Elt F .f32) (ix2 e (Cert.Spec.colU2 d)) := by
  have h : (VV m c main_v10 : S128x128.Idx → Elt F .f32)
      = transpose S128x128 [1, 0] (extractStridedSlice S128x128 ![0, 128] (m ((c : Thread nD τ).loc main_arg6) : S128x256.Idx → Elt F .f32) slices_S128x256_S128x128_0_128) transposes_S128x128_S128x128_1_0 := by
    dsimp only [VV, hostOps0]; after_results; try rfl
  rw [h]
  refine (transpose_apply [1, 0] _ transposes_S128x128_S128x128_1_0 (ix2 d e) (ix2 e d) (fun b => by match b with | ⟨0, _⟩ => rfl | ⟨1, _⟩ => rfl)).trans ?_
  exact extractStridedSlice_apply ![0, 128] _ slices_S128x256_S128x128_0_128 (ix2 e d) (ix2 e (Cert.Spec.colU2 d)) (fun a => by
    match a with
    | ⟨0, _⟩ => show e.val = 0 + e.val; omega
    | ⟨1, _⟩ => show 128 + d.val = 128 + d.val; omega)

/-- The edge direction: the weight's last column, laid out as one row. -/
theorem Vv4_apply (c : Dev nD) (e : Fin 128) :
    (VV m c main_v4 : S1x128.Idx → Elt F .f32) (ix2 0 e) = (m ((c : Thread nD τ).loc main_arg2) : S128x257.Idx → Elt F .f32) (ix2 e Cert.Spec.colJ) := by
  have h : (VV m c main_v4 : S1x128.Idx → Elt F .f32)
      = shapeCast S1x128 (shapeCast S128 (extractStridedSlice S128x1 ![0, 256] (m ((c : Thread nD τ).loc main_arg2) : S128x257.Idx → Elt F .f32) slices_S128x257_S128x1_0_256) shapeCasts_S128x1_S128) shapeCasts_S128_S1x128 := by
    dsimp only [VV, hostOps0]; after_results; try rfl
  rw [h]
  refine (shapeCast_apply _ shapeCasts_S128_S1x128 (ix2 0 e) (ix1 e) (by rw [Shape.rowMajor_val_one, Shape.rowMajor_val_two]; show e.val = 0 * 128 + e.val; omega)).trans ?_
  refine (shapeCast_apply _ shapeCasts_S128x1_S128 (ix1 e) (ix2 e 0) (by rw [Shape.rowMajor_val_one, Shape.rowMajor_val_two]; show e.val * 1 + 0 = e.val; omega)).trans ?_
  exact extractStridedSlice_apply ![0, 256] _ slices_S128x257_S128x1_0_256 (ix2 e 0) (ix2 e Cert.Spec.colJ) (fun a => by
    match a with
    | ⟨0, _⟩ => show e.val = 0 + e.val; omega
    | ⟨1, _⟩ => show 256 = 256 + 0; omega)

/-- The array behind window of main_v11: a vector of 128 entries laid out as one row. -/
theorem Vv11_apply (c : Dev nD) (e : Fin 128) :
    (VV m c main_v11 : S1x128.Idx → Elt F .f32) (ix2 0 e) = (m ((c : Thread nD τ).loc main_arg3) : S128.Idx → Elt F .f32) (ix1 e) := by
  have h : (VV m c main_v11 : S1x128.Idx → Elt F .f32)
      = shapeCast S1x128 (m ((c : Thread nD τ).loc main_arg3) : S128.Idx → Elt F .f32) shapeCasts_S128_S1x128 := by
    dsimp only [VV, hostOps0]; after_results; try rfl
  rw [h]
  exact shapeCast_apply _ shapeCasts_S128_S1x128 (ix2 0 e) (ix1 e) (by rw [Shape.rowMajor_val_one, Shape.rowMajor_val_two]; show e.val = 0 * 128 + e.val; omega)

/-- The array behind window of main_v12: a vector of 128 entries laid out as one row. -/
theorem Vv12_apply (c : Dev nD) (e : Fin 128) :
    (VV m c main_v12 : S1x128.Idx → Elt F .f32) (ix2 0 e) = (m ((c : Thread nD τ).loc main_arg4) : S128.Idx → Elt F .f32) (ix1 e) := by
  have h : (VV m c main_v12 : S1x128.Idx → Elt F .f32)
      = shapeCast S1x128 (m ((c : Thread nD τ).loc main_arg4) : S128.Idx → Elt F .f32) shapeCasts_S128_S1x128 := by
    dsimp only [VV, hostOps0]; after_results; try rfl
  rw [h]
  exact shapeCast_apply _ shapeCasts_S128_S1x128 (ix2 0 e) (ix1 e) (by rw [Shape.rowMajor_val_one, Shape.rowMajor_val_two]; show e.val = 0 * 128 + e.val; omega)

/-- The array behind window of main_v13: a vector of 128 entries laid out as one row. -/
theorem Vv13_apply (c : Dev nD) (e : Fin 128) :
    (VV m c main_v13 : S1x128.Idx → Elt F .f32) (ix2 0 e) = (m ((c : Thread nD τ).loc main_arg5) : S128.Idx → Elt F .f32) (ix1 e) := by
  have h : (VV m c main_v13 : S1x128.Idx → Elt F .f32)
      = shapeCast S1x128 (m ((c : Thread nD τ).loc main_arg5) : S128.Idx → Elt F .f32) shapeCasts_S128_S1x128 := by
    dsimp only [VV, hostOps0]; after_results; try rfl
  rw [h]
  exact shapeCast_apply _ shapeCasts_S128_S1x128 (ix2 0 e) (ix1 e) (by rw [Shape.rowMajor_val_one, Shape.rowMajor_val_two]; show e.val = 0 * 128 + e.val; omega)

/-- The array behind window of main_v14: a vector of 128 entries laid out as one row. -/
theorem Vv14_apply (c : Dev nD) (e : Fin 128) :
    (VV m c main_v14 : S1x128.Idx → Elt F .f32) (ix2 0 e) = (m ((c : Thread nD τ).loc main_arg7) : S128.Idx → Elt F .f32) (ix1 e) := by
  have h : (VV m c main_v14 : S1x128.Idx → Elt F .f32)
      = shapeCast S1x128 (m ((c : Thread nD τ).loc main_arg7) : S128.Idx → Elt F .f32) shapeCasts_S128_S1x128 := by
    dsimp only [VV, hostOps0]; after_results; try rfl
  rw [h]
  exact shapeCast_apply _ shapeCasts_S128_S1x128 (ix2 0 e) (ix1 e) (by rw [Shape.rowMajor_val_one, Shape.rowMajor_val_two]; show e.val = 0 * 128 + e.val; omega)

/-- The array behind window of main_v15: a vector of 128 entries laid out as one row. -/
theorem Vv15_apply (c : Dev nD) (e : Fin 128) :
    (VV m c main_v15 : S1x128.Idx → Elt F .f32) (ix2 0 e) = (m ((c : Thread nD τ).loc main_arg8) : S128.Idx → Elt F .f32) (ix1 e) := by
  have h : (VV m c main_v15 : S1x128.Idx → Elt F .f32)
      = shapeCast S1x128 (m ((c : Thread nD τ).loc main_arg8) : S128.Idx → Elt F .f32) shapeCasts_S128_S1x128 := by
    dsimp only [VV, hostOps0]; after_results; try rfl
  rw [h]
  exact shapeCast_apply _ shapeCasts_S128_S1x128 (ix2 0 e) (ix1 e) (by rw [Shape.rowMajor_val_one, Shape.rowMajor_val_two]; show e.val = 0 * 128 + e.val; omega)

/-- The array behind window of main_v16: a vector of 128 entries laid out as one row. -/
theorem Vv16_apply (c : Dev nD) (e : Fin 128) :
    (VV m c main_v16 : S1x128.Idx → Elt F .f32) (ix2 0 e) = (m ((c : Thread nD τ).loc main_arg9) : S128.Idx → Elt F .f32) (ix1 e) := by
  have h : (VV m c main_v16 : S1x128.Idx → Elt F .f32)
      = shapeCast S1x128 (m ((c : Thread nD τ).loc main_arg9) : S128.Idx → Elt F .f32) shapeCasts_S128_S1x128 := by
    dsimp only [VV, hostOps0]; after_results; try rfl
  rw [h]
  exact shapeCast_apply _ shapeCasts_S128_S1x128 (ix2 0 e) (ix1 e) (by rw [Shape.rowMajor_val_one, Shape.rowMajor_val_two]; show e.val = 0 * 128 + e.val; omega)

end Cert.KernelIdeal.Hand

end
-- ==== Proof.Bridge.lean ====
/-
  The tile form of the specification, taken at the data one grid point sees, is the array form at the tile's rows.

  Everything here is reordering of finite sums and of a four-term addition over the extended reals (an additive
  commutative monoid, so no finiteness is needed), plus the evaluation of a sum against the indicator of one index.
-/
import proofs.«117897_j42099269435680_2_alg».proof.Proof.Spec

noncomputable section

namespace Cert.Spec

/-- Row r of tile t1, as a row of the whole 256-row array. -/
def row (t1 : Fin 4) (r : Fin 64) : Fin 256 :=
  ⟨64 * t1.val + r.val, by have := t1.isLt; have := r.isLt; omega⟩

@[simp] theorem row_val (t1 : Fin 4) (r : Fin 64) : (row t1 r).val = 64 * t1.val + r.val := rfl

/-- A sum against the indicator of column 64 * t1 + r picks out that column. -/
theorem tadjDiag_eq (t1 : Fin 4) (adjt : Fin 64 → Fin 256 → EReal) (r : Fin 64) :
    tadjDiag t1 adjt r = adjt r (row t1 r) := by
  unfold tadjDiag
  have hcond : ∀ j : Fin 256, (64 * t1.val + r.val = j.val) ↔ (row t1 r = j) := fun j => by
    rw [Fin.ext_iff, row_val]
  simp only [hcond]
  rw [Finset.sum_ite_eq]
  simp

section

variable (h : Fin 8 → Fin 256 → Fin 128 → EReal) (adj : Fin 8 → Fin 256 → Fin 256 → EReal)
  (Wm : Fin 128 → Fin 257 → EReal) (bm gm βm : Fin 128 → EReal)
  (Wu : Fin 128 → Fin 256 → EReal) (bu gu βu : Fin 128 → EReal)
  (b : Fin 8) (t1 : Fin 4)

/-- The pre-activation of the tile's row r against source j is the array's at (row t1 r, j): the bias is added
    first in the tile form and last in the array form. -/
theorem tpre_eq (r : Fin 64) (j : Fin 256) (e : Fin 128) :
    tpre (fun r' d => h b (row t1 r') d) (fun j d => h b j d) (fun r' j => adj b (row t1 r') j)
      (fun d e' => Wm e' (colT d)) (fun d e' => Wm e' (colS d)) (fun e' => Wm e' colJ) bm r j e
    = pre h adj Wm bm b (row t1 r) j e := by
  simp only [tpre, tprojT, tprojS, pre, projT, projS]
  rw [add_right_comm (∑ d : Fin 128, h b (row t1 r) d * Wm e (colT d)) (bm e), add_right_comm _ (bm e)]

/-- The diagonal pre-activation of row r is the array's at (row t1 r, row t1 r). -/
theorem tpreDiag_eq (r : Fin 64) (e : Fin 128) :
    tpreDiag t1 (fun r' d => h b (row t1 r') d) (fun r' j => adj b (row t1 r') j)
      (fun d e' => Wm e' (colT d)) (fun d e' => Wm e' (colS d)) (fun e' => Wm e' colJ) bm r e
    = pre h adj Wm bm b (row t1 r) (row t1 r) e := by
  simp only [tpreDiag, tadjDiag_eq, tprojT, pre, projT, projS]
  rw [add_right_comm (∑ d : Fin 128, h b (row t1 r) d * Wm e (colT d)) (bm e), add_right_comm _ (bm e)]

theorem tmsg_eq (r : Fin 64) (j : Fin 256) (e : Fin 128) :
    tmsg (fun r' d => h b (row t1 r') d) (fun j d => h b j d) (fun r' j => adj b (row t1 r') j)
      (fun d e' => Wm e' (colT d)) (fun d e' => Wm e' (colS d)) (fun e' => Wm e' colJ) bm gm βm r j e
    = msg h adj Wm bm gm βm b (row t1 r) j e := by
  unfold tmsg msg
  have hrow : tpre (fun r' d => h b (row t1 r') d) (fun j d => h b j d) (fun r' j => adj b (row t1 r') j)
      (fun d e' => Wm e' (colT d)) (fun d e' => Wm e' (colS d)) (fun e' => Wm e' colJ) bm r j
      = pre h adj Wm bm b (row t1 r) j := funext fun e' => tpre_eq h adj Wm bm b t1 r j e'
  rw [hrow]

theorem tmsgDiag_eq (r : Fin 64) (e : Fin 128) :
    tmsgDiag t1 (fun r' d => h b (row t1 r') d) (fun r' j => adj b (row t1 r') j)
      (fun d e' => Wm e' (colT d)) (fun d e' => Wm e' (colS d)) (fun e' => Wm e' colJ) bm gm βm r e
    = msg h adj Wm bm gm βm b (row t1 r) (row t1 r) e := by
  unfold tmsgDiag msg
  have hrow : tpreDiag t1 (fun r' d => h b (row t1 r') d) (fun r' j => adj b (row t1 r') j)
      (fun d e' => Wm e' (colT d)) (fun d e' => Wm e' (colS d)) (fun e' => Wm e' colJ) bm r
      = pre h adj Wm bm b (row t1 r) (row t1 r) := funext fun e' => tpreDiag_eq h adj Wm bm b t1 r e'
  rw [hrow]

theorem tagg_eq (r : Fin 64) (e : Fin 128) :
    tagg t1 (fun r' d => h b (row t1 r') d) (fun j d => h b j d) (fun r' j => adj b (row t1 r') j)
      (fun d e' => Wm e' (colT d)) (fun d e' => Wm e' (colS d)) (fun e' => Wm e' colJ) bm gm βm r e
    = agg h adj Wm bm gm βm b (row t1 r) e := by
  unfold tagg agg
  rw [tmsgDiag_eq]
  simp only [tmsg_eq]

theorem tupd_eq (r : Fin 64) (e : Fin 128) :
    tupd t1 (fun r' d => h b (row t1 r') d) (fun j d => h b j d) (fun r' j => adj b (row t1 r') j)
      (fun d e' => Wm e' (colT d)) (fun d e' => Wm e' (colS d)) (fun e' => Wm e' colJ) bm gm βm
      (fun d e' => Wu e' (colU1 d)) (fun d e' => Wu e' (colU2 d)) bu r e
    = updPre h adj Wm bm gm βm Wu bu b (row t1 r) e := by
  unfold tupd updPre
  simp only [tagg_eq]

/-- The tile form at the tile's data is the array form at the tile's rows. -/
theorem tout_eq_out_row (r : Fin 64) (e : Fin 128) :
    tout t1 (fun r' d => h b (row t1 r') d) (fun j d => h b j d) (fun r' j => adj b (row t1 r') j)
      (fun d e' => Wm e' (colT d)) (fun d e' => Wm e' (colS d)) (fun e' => Wm e' colJ) bm gm βm
      (fun d e' => Wu e' (colU1 d)) (fun d e' => Wu e' (colU2 d)) bu gu βu r e
    = out h adj Wm bm gm βm Wu bu gu βu b (row t1 r) e := by
  unfold tout out
  have hrow : tupd t1 (fun r' d => h b (row t1 r') d) (fun j d => h b j d) (fun r' j => adj b (row t1 r') j)
      (fun d e' => Wm e' (colT d)) (fun d e' => Wm e' (colS d)) (fun e' => Wm e' colJ) bm gm βm
      (fun d e' => Wu e' (colU1 d)) (fun d e' => Wu e' (colU2 d)) bu r
      = updPre h adj Wm bm gm βm Wu bu b (row t1 r) := funext fun e' => tupd_eq h adj Wm bm gm βm Wu bu b t1 r e'
  rw [hrow]

/-- The same, with the array row named by its number. -/
theorem tout_eq_out (r : Fin 64) (e : Fin 128) (i : Fin 256) (hi : i.val = 64 * t1.val + r.val) :
    tout t1 (fun r' d => h b (row t1 r') d) (fun j d => h b j d) (fun r' j => adj b (row t1 r') j)
      (fun d e' => Wm e' (colT d)) (fun d e' => Wm e' (colS d)) (fun e' => Wm e' colJ) bm gm βm
      (fun d e' => Wu e' (colU1 d)) (fun d e' => Wu e' (colU2 d)) bu gu βu r e
    = out h adj Wm bm gm βm Wu bu gu βu b i e := by
  have hrow : i = row t1 r := Fin.ext (by rw [hi, row_val])
  rw [hrow]
  exact tout_eq_out_row h adj Wm bm gm βm Wu bu gu βu b t1 r e

end

end Cert.Spec

end
-- ==== Proof.BlocksI.lean ====
/-
  Where each window's block sits in its array, and so what each block holds in terms of the argument arrays.

  Grid point t has coordinates (b, q): batch entry b of 8 and row tile q of 4. The tile window of the node features,
  the edge-weight window and the output window are at block (b, q, 0): rows 64 q … 64 q + 63 of batch entry b. The
  all-rows window of the node features is at block (b, 0, 0): all 256 rows of batch entry b. The eleven parameter
  windows sit at block (0, 0): the whole of their arrays. The output's 32 blocks tile its array.
-/
import proofs.«117897_j42099269435680_2_alg».proof.Proof.FrameI
import proofs.«117897_j42099269435680_2_alg».proof.Proof.HostPrefixI
import proofs.«117897_j42099269435680_2_alg».proof.Proof.Bridge
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

variable {F : FTy → Type} [FloatOps F]
variable (m : (ℓ : Loc nD τ sig) → Buf (Elt F) ℓ)

/-- The batch entry and the row tile of grid point t. -/
def tb (t : Fin cfg0.N) : Fin 8 := ⟨(grid0.coords t 0).val, (grid0.coords t 0).isLt⟩
def tq (t : Fin cfg0.N) : Fin 4 := ⟨(grid0.coords t 1).val, (grid0.coords t 1).isLt⟩

/-- The printed index maps of the four moving windows, decided over the grid. -/
theorem idx_facts : ∀ t : Fin cfg0.N,
    win0_0.index t (0 : Fin 3) = (grid0.coords t 0).val ∧ win0_0.index t (1 : Fin 3) = (grid0.coords t 1).val ∧ win0_0.index t (2 : Fin 3) = 0
    ∧ win0_1.index t (0 : Fin 3) = (grid0.coords t 0).val ∧ win0_1.index t (1 : Fin 3) = 0 ∧ win0_1.index t (2 : Fin 3) = 0
    ∧ win0_2.index t (0 : Fin 3) = (grid0.coords t 0).val ∧ win0_2.index t (1 : Fin 3) = (grid0.coords t 1).val ∧ win0_2.index t (2 : Fin 3) = 0
    ∧ win0_14.index t (0 : Fin 3) = (grid0.coords t 0).val ∧ win0_14.index t (1 : Fin 3) = (grid0.coords t 1).val ∧ win0_14.index t (2 : Fin 3) = 0 :=
  (by decide +kernel : ∀ t : Fin grid0.N, _)

theorem idx_const3 : ∀ t : Fin cfg0.N, win0_3.index t (0 : Fin 2) = 0 ∧ win0_3.index t (1 : Fin 2) = 0 :=
  (by decide +kernel : ∀ t : Fin grid0.N, _)
theorem idx_const4 : ∀ t : Fin cfg0.N, win0_4.index t (0 : Fin 2) = 0 ∧ win0_4.index t (1 : Fin 2) = 0 :=
  (by decide +kernel : ∀ t : Fin grid0.N, _)
theorem idx_const5 : ∀ t : Fin cfg0.N, win0_5.index t (0 : Fin 2) = 0 ∧ win0_5.index t (1 : Fin 2) = 0 :=
  (by decide +kernel : ∀ t : Fin grid0.N, _)
theorem idx_const6 : ∀ t : Fin cfg0.N, win0_6.index t (0 : Fin 2) = 0 ∧ win0_6.index t (1 : Fin 2) = 0 :=
  (by decide +kernel : ∀ t : Fin grid0.N, _)
theorem idx_const7 : ∀ t : Fin cfg0.N, win0_7.index t (0 : Fin 2) = 0 ∧ win0_7.index t (1 : Fin 2) = 0 :=
  (by decide +kernel : ∀ t : Fin grid0.N, _)
theorem idx_const8 : ∀ t : Fin cfg0.N, win0_8.index t (0 : Fin 2) = 0 ∧ win0_8.index t (1 : Fin 2) = 0 :=
  (by decide +kernel : ∀ t : Fin grid0.N, _)
theorem idx_const9 : ∀ t : Fin cfg0.N, win0_9.index t (0 : Fin 2) = 0 ∧ win0_9.index t (1 : Fin 2) = 0 :=
  (by decide +kernel : ∀ t : Fin grid0.N, _)
theorem idx_const10 : ∀ t : Fin cfg0.N, win0_10.index t (0 : Fin 2) = 0 ∧ win0_10.index t (1 : Fin 2) = 0 :=
  (by decide +kernel : ∀ t : Fin grid0.N, _)
theorem idx_const11 : ∀ t : Fin cfg0.N, win0_11.index t (0 : Fin 2) = 0 ∧ win0_11.index t (1 : Fin 2) = 0 :=
  (by decide +kernel : ∀ t : Fin grid0.N, _)
theorem idx_const12 : ∀ t : Fin cfg0.N, win0_12.index t (0 : Fin 2) = 0 ∧ win0_12.index t (1 : Fin 2) = 0 :=
  (by decide +kernel : ∀ t : Fin grid0.N, _)
theorem idx_const13 : ∀ t : Fin cfg0.N, win0_13.index t (0 : Fin 2) = 0 ∧ win0_13.index t (1 : Fin 2) = 0 :=
  (by decide +kernel : ∀ t : Fin grid0.N, _)

/-- Every block position (b, q) is some grid point's. -/
theorem idx_onto : ∀ (b : Fin 8) (q : Fin 4), ∃ t : Fin cfg0.N, win0_14.index t = ![b.val, q.val, 0] :=
  (by decide +kernel : ∀ (b : Fin 8) (q : Fin 4), ∃ t : Fin grid0.N, win0_14.index t = ![b.val, q.val, 0])

/-! ## The moving input blocks -/

theorem blk0 (c : Dev nD) (t : Fin cfg0.N) (r : Fin 64) (d : Fin 128) :
    iblk m c 0 t (ix3 0 r d) = (m ((c : Thread nD τ).loc main_arg0) : S8x256x128.Idx → Elt F .f32) (ix3 (tb t) (Cert.Spec.row (tq t) r) d) := by
  show V m c main_arg0 (((cfg0.win 0).blk t).view.emb (ix3 0 r d)) = _
  rw [V_main_arg0]
  refine congrArg _ ?_
  obtain ⟨e0, e1, e2, -⟩ := idx_facts t
  funext a; apply Fin.ext
  match a with
  | ⟨0, _⟩ => show win0_0.index t (0 : Fin 3) * 1 + 1 * 0 = (grid0.coords t 0).val; omega
  | ⟨1, _⟩ => show win0_0.index t (1 : Fin 3) * 64 + 1 * r.val = 64 * (grid0.coords t 1).val + r.val; omega
  | ⟨2, _⟩ => show win0_0.index t (2 : Fin 3) * 128 + 1 * d.val = d.val; omega

theorem blk1 (c : Dev nD) (t : Fin cfg0.N) (j : Fin 256) (d : Fin 128) :
    iblk m c 1 t (ix3 0 j d) = (m ((c : Thread nD τ).loc main_arg0) : S8x256x128.Idx → Elt F .f32) (ix3 (tb t) j d) := by
  show V m c main_arg0 (((cfg0.win 1).blk t).view.emb (ix3 0 j d)) = _
  rw [V_main_arg0]
  refine congrArg _ ?_
  obtain ⟨-, -, -, e0, e1, e2, -⟩ := idx_facts t
  funext a; apply Fin.ext
  match a with
  | ⟨0, _⟩ => show win0_1.index t (0 : Fin 3) * 1 + 1 * 0 = (grid0.coords t 0).val; omega
  | ⟨1, _⟩ => show win0_1.index t (1 : Fin 3) * 256 + 1 * j.val = j.val; omega
  | ⟨2, _⟩ => show win0_1.index t (2 : Fin 3) * 128 + 1 * d.val = d.val; omega

theorem blk2 (c : Dev nD) (t : Fin cfg0.N) (r : Fin 64) (j : Fin 256) :
    iblk m c 2 t (ix3 0 r j) = (m ((c : Thread nD τ).loc main_arg1) : S8x256x256.Idx → Elt F .f32) (ix3 (tb t) (Cert.Spec.row (tq t) r) j) := by
  show V m c main_arg1 (((cfg0.win 2).blk t).view.emb (ix3 0 r j)) = _
  rw [V_main_arg1]
  refine congrArg _ ?_
  obtain ⟨-, -, -, -, -, -, e0, e1, e2, -⟩ := idx_facts t
  funext a; apply Fin.ext
  match a with
  | ⟨0, _⟩ => show win0_2.index t (0 : Fin 3) * 1 + 1 * 0 = (grid0.coords t 0).val; omega
  | ⟨1, _⟩ => show win0_2.index t (1 : Fin 3) * 64 + 1 * r.val = 64 * (grid0.coords t 1).val + r.val; omega
  | ⟨2, _⟩ => show win0_2.index t (2 : Fin 3) * 256 + 1 * j.val = j.val; omega

/-! ## The parameter blocks -/

theorem blk3 (c : Dev nD) (t : Fin cfg0.N) (d e : Fin 128) :
    iblk m c 3 t (ix2 d e) = (m ((c : Thread nD τ).loc main_arg2) : S128x257.Idx → Elt F .f32) (ix2 e (Cert.Spec.colT d)) := by
  show V m c main_v5 (((cfg0.win 3).blk t).view.emb (ix2 d e)) = _
  refine Eq.trans (congrArg _ ?_) (Vv5_apply m c d e)
  obtain ⟨z0, z1⟩ := idx_const3 t
  funext a; apply Fin.ext
  match a with
  | ⟨0, _⟩ => show win0_3.index t (0 : Fin 2) * 128 + 1 * d.val = d.val; omega
  | ⟨1, _⟩ => show win0_3.index t (1 : Fin 2) * 128 + 1 * e.val = e.val; omega

theorem blk4 (c : Dev nD) (t : Fin cfg0.N) (d e : Fin 128) :
    iblk m c 4 t (ix2 d e) = (m ((c : Thread nD τ).loc main_arg2) : S128x257.Idx → Elt F .f32) (ix2 e (Cert.Spec.colS d)) := by
  show V m c main_v6 (((cfg0.win 4).blk t).view.emb (ix2 d e)) = _
  refine Eq.trans (congrArg _ ?_) (Vv6_apply m c d e)
  obtain ⟨z0, z1⟩ := idx_const4 t
  funext a; apply Fin.ext
  match a with
  | ⟨0, _⟩ => show win0_4.index t (0 : Fin 2) * 128 + 1 * d.val = d.val; omega
  | ⟨1, _⟩ => show win0_4.index t (1 : Fin 2) * 128 + 1 * e.val = e.val; omega

theorem blk5 (c : Dev nD) (t : Fin cfg0.N) (e : Fin 128) :
    iblk m c 5 t (ix2 0 e) = (m ((c : Thread nD τ).loc main_arg2) : S128x257.Idx → Elt F .f32) (ix2 e Cert.Spec.colJ) := by
  show V m c main_v4 (((cfg0.win 5).blk t).view.emb (ix2 0 e)) = _
  refine Eq.trans (congrArg _ ?_) (Vv4_apply m c e)
  obtain ⟨z0, z1⟩ := idx_const5 t
  funext a; apply Fin.ext
  match a with
  | ⟨0, _⟩ => show win0_5.index t (0 : Fin 2) * 1 + 1 * 0 = 0; omega
  | ⟨1, _⟩ => show win0_5.index t (1 : Fin 2) * 128 + 1 * e.val = e.val; omega

theorem blk6 (c : Dev nD) (t : Fin cfg0.N) (e : Fin 128) :
    iblk m c 6 t (ix2 0 e) = (m ((c : Thread nD τ).loc main_arg3) : S128.Idx → Elt F .f32) (ix1 e) := by
  show V m c main_v11 (((cfg0.win 6).blk t).view.emb (ix2 0 e)) = _
  refine Eq.trans (congrArg _ ?_) (Vv11_apply m c e)
  obtain ⟨z0, z1⟩ := idx_const6 t
  funext a; apply Fin.ext
  match a with
  | ⟨0, _⟩ => show win0_6.index t (0 : Fin 2) * 1 + 1 * 0 = 0; omega
  | ⟨1, _⟩ => show win0_6.index t (1 : Fin 2) * 128 + 1 * e.val = e.val; omega

theorem blk7 (c : Dev nD) (t : Fin cfg0.N) (e : Fin 128) :
    iblk m c 7 t (ix2 0 e) = (m ((c : Thread nD τ).loc main_arg4) : S128.Idx → Elt F .f32) (ix1 e) := by
  show V m c main_v12 (((cfg0.win 7).blk t).view.emb (ix2 0 e)) = _
  refine Eq.trans (congrArg _ ?_) (Vv12_apply m c e)
  obtain ⟨z0, z1⟩ := idx_const7 t
  funext a; apply Fin.ext
  match a with
  | ⟨0, _⟩ => show win0_7.index t (0 : Fin 2) * 1 + 1 * 0 = 0; omega
  | ⟨1, _⟩ => show win0_7.index t (1 : Fin 2) * 128 + 1 * e.val = e.val; omega

theorem blk8 (c : Dev nD) (t : Fin cfg0.N) (e : Fin 128) :
    iblk m c 8 t (ix2 0 e) = (m ((c : Thread nD τ).loc main_arg5) : S128.Idx → Elt F .f32) (ix1 e) := by
  show V m c main_v13 (((cfg0.win 8).blk t).view.emb (ix2 0 e)) = _
  refine Eq.trans (congrArg _ ?_) (Vv13_apply m c e)
  obtain ⟨z0, z1⟩ := idx_const8 t
  funext a; apply Fin.ext
  match a with
  | ⟨0, _⟩ => show win0_8.index t (0 : Fin 2) * 1 + 1 * 0 = 0; omega
  | ⟨1, _⟩ => show win0_8.index t (1 : Fin 2) * 128 + 1 * e.val = e.val; omega

theorem blk9 (c : Dev nD) (t : Fin cfg0.N) (d e : Fin 128) :
    iblk m c 9 t (ix2 d e) = (m ((c : Thread nD τ).loc main_arg6) : S128x256.Idx → Elt F .f32) (ix2 e (Cert.Spec.colU1 d)) := by
  show V m c main_v9 (((cfg0.win 9).blk t).view.emb (ix2 d e)) = _
  refine Eq.trans (congrArg _ ?_) (Vv9_apply m c d e)
  obtain ⟨z0, z1⟩ := idx_const9 t
  funext a; apply Fin.ext
  match a with
  | ⟨0, _⟩ => show win0_9.index t (0 : Fin 2) * 128 + 1 * d.val = d.val; omega
  | ⟨1, _⟩ => show win0_9.index t (1 : Fin 2) * 128 + 1 * e.val = e.val; omega

theorem blk10 (c : Dev nD) (t : Fin cfg0.N) (d e : Fin 128) :
    iblk m c 10 t (ix2 d e) = (m ((c : Thread nD τ).loc main_arg6) : S128x256.Idx → Elt F .f32) (ix2 e (Cert.Spec.colU2 d)) := by
  show V m c main_v10 (((cfg0.win 10).blk t).view.emb (ix2 d e)) = _
  refine Eq.trans (congrArg _ ?_) (Vv10_apply m c d e)
  obtain ⟨z0, z1⟩ := idx_const10 t
  funext a; apply Fin.ext
  match a with
  | ⟨0, _⟩ => show win0_10.index t (0 : Fin 2) * 128 + 1 * d.val = d.val; omega
  | ⟨1, _⟩ => show win0_10.index t (1 : Fin 2) * 128 + 1 * e.val = e.val; omega

theorem blk11 (c : Dev nD) (t : Fin cfg0.N) (e : Fin 128) :
    iblk m c 11 t (ix2 0 e) = (m ((c : Thread nD τ).loc main_arg7) : S128.Idx → Elt F .f32) (ix1 e) := by
  show V m c main_v14 (((cfg0.win 11).blk t).view.emb (ix2 0 e)) = _
  refine Eq.trans (congrArg _ ?_) (Vv14_apply m c e)
  obtain ⟨z0, z1⟩ := idx_const11 t
  funext a; apply Fin.ext
  match a with
  | ⟨0, _⟩ => show win0_11.index t (0 : Fin 2) * 1 + 1 * 0 = 0; omega
  | ⟨1, _⟩ => show win0_11.index t (1 : Fin 2) * 128 + 1 * e.val = e.val; omega

theorem blk12 (c : Dev nD) (t : Fin cfg0.N) (e : Fin 128) :
    iblk m c 12 t (ix2 0 e) = (m ((c : Thread nD τ).loc main_arg8) : S128.Idx → Elt F .f32) (ix1 e) := by
  show V m c main_v15 (((cfg0.win 12).blk t).view.emb (ix2 0 e)) = _
  refine Eq.trans (congrArg _ ?_) (Vv15_apply m c e)
  obtain ⟨z0, z1⟩ := idx_const12 t
  funext a; apply Fin.ext
  match a with
  | ⟨0, _⟩ => show win0_12.index t (0 : Fin 2) * 1 + 1 * 0 = 0; omega
  | ⟨1, _⟩ => show win0_12.index t (1 : Fin 2) * 128 + 1 * e.val = e.val; omega

theorem blk13 (c : Dev nD) (t : Fin cfg0.N) (e : Fin 128) :
    iblk m c 13 t (ix2 0 e) = (m ((c : Thread nD τ).loc main_arg9) : S128.Idx → Elt F .f32) (ix1 e) := by
  show V m c main_v16 (((cfg0.win 13).blk t).view.emb (ix2 0 e)) = _
  refine Eq.trans (congrArg _ ?_) (Vv16_apply m c e)
  obtain ⟨z0, z1⟩ := idx_const13 t
  funext a; apply Fin.ext
  match a with
  | ⟨0, _⟩ => show win0_13.index t (0 : Fin 2) * 1 + 1 * 0 = 0; omega
  | ⟨1, _⟩ => show win0_13.index t (1 : Fin 2) * 128 + 1 * e.val = e.val; omega

/-! ## The output's blocks -/

/-- Where an element of the output block sits in the result array. -/
theorem emb14 (t : Fin cfg0.N) (r : Fin 64) (e : Fin 128) :
    ((cfg0.win 14).blk t).view.emb (ix3 0 r e) = (ix3 (tb t) (Cert.Spec.row (tq t) r) e : S8x256x128.Idx) := by
  obtain ⟨-, -, -, -, -, -, -, -, -, e0, e1, e2⟩ := idx_facts t
  funext a; apply Fin.ext
  match a with
  | ⟨0, _⟩ => show win0_14.index t (0 : Fin 3) * 1 + 1 * 0 = (grid0.coords t 0).val; omega
  | ⟨1, _⟩ => show win0_14.index t (1 : Fin 3) * 64 + 1 * r.val = 64 * (grid0.coords t 1).val + r.val; omega
  | ⟨2, _⟩ => show win0_14.index t (2 : Fin 3) * 128 + 1 * e.val = e.val; omega

/-- An index of the result array is in point t's block iff each coordinate is in the block's range on its axis. -/
theorem mem_blk14 (t : Fin cfg0.N) (i : S8x256x128.Idx) :
    i ∈ ((cfg0.win 14).blk t).view.set ↔ ∀ a : Fin 3, win0_14.index t a * S1x64x128.size a ≤ (i a).val ∧ (i a).val < win0_14.index t a * S1x64x128.size a + S1x64x128.size a := by
  show i ∈ ((View.whole main_v17).slice (win0_14.rect t)).set ↔ _
  rw [View.set_slice_whole, Rect.mem_set_unit]
  exact Iff.rfl

/-- Every index of the result array is in some grid point's block: the point at batch entry i 0 and row tile i 1 / 64. -/
theorem cover14_arr (i : S8x256x128.Idx) :
    ∃ t : Fin cfg0.N, (cfg0.win 14).flush t = true ∧ i ∈ ((cfg0.win 14).blk t).view.set := by
  have hi0 : (i 0).val < 8 := (i 0).isLt
  have hi1 : (i 1).val < 256 := (i 1).isLt
  have hi2 : (i 2).val < 128 := (i 2).isLt
  obtain ⟨t, ht⟩ := idx_onto ⟨(i 0).val, hi0⟩ ⟨(i 1).val / 64, by omega⟩
  have q0 : win0_14.index t (0 : Fin 3) = (i 0).val := congrFun ht 0
  have q1 : win0_14.index t (1 : Fin 3) = (i 1).val / 64 := congrFun ht 1
  have q2 : win0_14.index t (2 : Fin 3) = 0 := congrFun ht 2
  refine ⟨t, flush0_14 t, ?_⟩
  rw [mem_blk14]
  intro a
  match a with
  | ⟨0, _⟩ => show win0_14.index t (0 : Fin 3) * 1 ≤ (i 0).val ∧ (i 0).val < win0_14.index t (0 : Fin 3) * 1 + 1; omega
  | ⟨1, _⟩ => show win0_14.index t (1 : Fin 3) * 64 ≤ (i 1).val ∧ (i 1).val < win0_14.index t (1 : Fin 3) * 64 + 64; omega
  | ⟨2, _⟩ => show win0_14.index t (2 : Fin 3) * 128 ≤ (i 2).val ∧ (i 2).val < win0_14.index t (2 : Fin 3) * 128 + 128; omega

end Cert.KernelIdeal.Hand

end
-- ==== Proof.FrameRunI.lean ====
/-
  The run of the kernel program from its frame module's proof data: how the arrays' buffers are divided among the
  windows at the region's entry, the launch, and from its post the frame claim and the result array's contents.
-/
import proofs.«117897_j42099269435680_2_alg».proof.Proof.FrameI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows' arrays, each a whole buffer, as points-tos of the buffers behind them at the proof data's shares. -/
theorem arrays_eq_shares (c : Dev nD) (A : (w : Fin cfg0.W) → Buf (Elt F) ((cfg0.win w).arr.view.loc (c : Thread nD τ))) :
    (dats m 0 c).arrays A
      = bigSep Finset.univ fun w : Fin cfg0.W => (((c : Thread nD τ).loc (Pipeline.arrRef spec0 w)) ↦{(dats m 0 c).share w} A w : sProp 𝕄) := by
  unfold Dat.arrays
  exact bigSep_congr fun w _ => by rw [(arr_whole0 w).set_eq_univ]

/-- At the region's entry the fourteen distinct buffers behind the fifteen windows' arrays, each held whole, make
    the windows' arrays at the proof data's shares: the node-feature array's buffer is split in two halves, one for
    the tile window and one for the all-rows window; every other buffer goes to its one window whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_eq_shares]
  unfold Pipeline.arrBufs
  rw [bigSep_eq_bigSepL_of_eq [main_arg0, main_arg1, main_v5, main_v6, main_v4, main_v11, main_v12, main_v13, main_v9, main_v10, main_v14, main_v15, main_v16, main_v17] (by decide) (by decide), bigSep_W0]
  refine (show (iprop((((c : Thread nD τ).loc main_arg0) ↦{fullShare} V m c main_arg0) ∗ (((c : Thread nD τ).loc main_arg1) ↦{fullShare} V m c main_arg1) ∗ (((c : Thread nD τ).loc main_v5) ↦{fullShare} V m c main_v5) ∗ (((c : Thread nD τ).loc main_v6) ↦{fullShare} V m c main_v6) ∗ (((c : Thread nD τ).loc main_v4) ↦{fullShare} V m c main_v4) ∗ (((c : Thread nD τ).loc main_v11) ↦{fullShare} V m c main_v11) ∗ (((c : Thread nD τ).loc main_v12) ↦{fullShare} V m c main_v12) ∗ (((c : Thread nD τ).loc main_v13) ↦{fullShare} V m c main_v13) ∗ (((c : Thread nD τ).loc main_v9) ↦{fullShare} V m c main_v9) ∗ (((c : Thread nD τ).loc main_v10) ↦{fullShare} V m c main_v10) ∗ (((c : Thread nD τ).loc main_v14) ↦{fullShare} V m c main_v14) ∗ (((c : Thread nD τ).loc main_v15) ↦{fullShare} V m c main_v15) ∗ (((c : Thread nD τ).loc main_v16) ↦{fullShare} V m c main_v16) ∗ (((c : Thread nD τ).loc main_v17) ↦{fullShare} V m c main_v17)) : sProp 𝕄) ⊢ _ from ?_)
  iintro ⟨H0, H1, H2, H3, H4, H5, H6, H7, H8, H9, H10, H11, H12, H13⟩
  ihave Hs := (pointsTo_share (PosShare.mem_left_op_right fullShare)).1 $$ H0
  icases Hs with ⟨Ha, Hb⟩
  isplitl [Ha]; · iexact Ha
  isplitl [Hb]; · iexact Hb
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

set_option backward.isDefEq.respectTransparency.types false in
/-- Every weakly fair execution of the program terminates, and every final state has every windowed array at what
    the proof data compute and every other unscoped buffer as the region found it. -/
theorem run_main : θ_run defs (onTc (τ := τ) (main (F := F))) (s₀ m ρ) (Pipeline.FramePost cfgs (dats m) 0 (V m)) :=
  Cert.LibFrameShared.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- The run with the result array named and the ten argument arrays unchanged: the two arrays the kernel windows
    are inputs, never written; the other eight bypass the region and no host operation writes them. -/
theorem run_named : θ_run defs (onTc (τ := τ) (main (F := F))) ⟨m, fun _ => 0, ρ⟩ (fun r => ∀ c : Dev nD,
      r.2.mem ((c.tc : Thread nD τ).loc main_v17) = (dats m 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1 14,
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 rfl (by decide))).trans (V_main_arg2 m c),
      ((h c).2 main_arg3 (Pipeline.mem_restRefs_of main_arg3 rfl (by decide))).trans (V_main_arg3 m c),
      ((h c).2 main_arg4 (Pipeline.mem_restRefs_of main_arg4 rfl (by decide))).trans (V_main_arg4 m c),
      ((h c).2 main_arg5 (Pipeline.mem_restRefs_of main_arg5 rfl (by decide))).trans (V_main_arg5 m c),
      ((h c).2 main_arg6 (Pipeline.mem_restRefs_of main_arg6 rfl (by decide))).trans (V_main_arg6 m c),
      ((h c).2 main_arg7 (Pipeline.mem_restRefs_of main_arg7 rfl (by decide))).trans (V_main_arg7 m c),
      ((h c).2 main_arg8 (Pipeline.mem_restRefs_of main_arg8 rfl (by decide))).trans (V_main_arg8 m c),
      ((h c).2 main_arg9 (Pipeline.mem_restRefs_of main_arg9 rfl (by decide))).trans (V_main_arg9 m c)⟩) (run_main m ρ)

/-- The frame claim's post. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_named m ρ)

end Cert.KernelIdeal.Hand

end
-- ==== Proof.KernelTile.lean ====
/-
  The kernel body's arithmetic read at one element of the block it stores: the composition of the generated payload
  functions, at row r and feature e of the tile, is the tile specification `Spec.tout` of the fourteen loaded blocks
  read by coordinates.

  First the vocabulary, which does not mention the kernel: the shape casts and broadcasts that add or repeat along a
  unit axis, a one-axis sum, and the layer normalisation as the body spells it, each read at an index written by
  coordinates. Then one lemma per payload function (the loaded blocks re-viewed, the projections, the slab of messages
  normalised and summed over the sources, the diagonal message recomputed from the tile's own rows, the update), and
  their composition.
-/
import proofs.«117897_j42099269435680_2_alg».proof.Proof.PayloadI
import proofs.«117897_j42099269435680_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Idealize.ShloMosaic Idealize.ShloMosaic.ValueIdx Idealize.SL.Sem Cert.KernelIdeal Cert.KernelIdeal.Gen

/-! ## Layout operations read at an index: the keepdims column forms

Each lemma reads one shape cast or broadcast that adds, or repeats along, a unit axis at an index written by
coordinates: the operand is read at the same coordinates with the unit axis at 0 (a broadcast) or dropped (a cast). -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- A `[c]` array cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * c + k.val
    simp only [hu, hv, Nat.zero_mul, Nat.add_zero, Nat.zero_add])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Layout

/-! ## A one-axis sum read at an index written by coordinates

At the ideal instance a sum over one axis is the instance's `reduceAdd`; read at an index written by coordinates it is
the sum over the dropped axis's coordinate, the other coordinates kept. -/

section Sums

/-- The sum over the columns of a matrix, at row `r`. -/
theorem reduceAdd_cols_apply {a b : ℕ} (src : (⟨2, ![a, b]⟩ : Shape).Idx → EReal)
    (h : (⟨2, ![a, b]⟩ : Shape).Reduces [1] ⟨1, ![a]⟩) (r : Fin a) :
    Ideal.reduceAdd h src (ix1 r) = ∑ k : Fin b, src (ix2 r k) := by
  refine (Ideal.reduceAdd_single h src (ix1 r)).trans ?_
  refine Finset.sum_congr rfl fun k _ => congrArg src (funext fun c => Fin.ext ?_)
  match c with
  | ⟨0, _⟩ => rfl
  | ⟨1, _⟩ => rfl

/-- The sum over the last axis of a rank-3 array, at `(r, j)`. -/
theorem reduceAdd_last_apply {a b c : ℕ} (src : (⟨3, ![a, b, c]⟩ : Shape).Idx → EReal)
    (h : (⟨3, ![a, b, c]⟩ : Shape).Reduces [2] ⟨2, ![a, b]⟩) (r : Fin a) (j : Fin b) :
    Ideal.reduceAdd h src (ix2 r j) = ∑ k : Fin c, src (ix3 r j k) := by
  refine (Ideal.reduceAdd_single h src (ix2 r j)).trans ?_
  refine Finset.sum_congr rfl fun k _ => congrArg src (funext fun d => Fin.ext ?_)
  match d with
  | ⟨0, _⟩ => rfl
  | ⟨1, _⟩ => rfl
  | ⟨2, _⟩ => rfl

/-- The sum over the middle axis of a rank-3 array, at `(r, e)`. -/
theorem reduceAdd_mid_apply {a b c : ℕ} (src : (⟨3, ![a, b, c]⟩ : Shape).Idx → EReal)
    (h : (⟨3, ![a, b, c]⟩ : Shape).Reduces [1] ⟨2, ![a, c]⟩) (r : Fin a) (e : Fin c) :
    Ideal.reduceAdd h src (ix2 r e) = ∑ j : Fin b, src (ix3 r j e) := by
  refine (Ideal.reduceAdd_single h src (ix2 r e)).trans ?_
  refine Finset.sum_congr rfl fun k _ => congrArg src (funext fun d => Fin.ext ?_)
  match d with
  | ⟨0, _⟩ => rfl
  | ⟨1, _⟩ => rfl
  | ⟨2, _⟩ => rfl

end Sums

/-! ## The remaining pointwise operations at an index -/

section Pointwise
variable {s : Shape} {φ : FTy}

theorem rsqrt_apply (a : FVec Ideal s φ) (i : s.Idx) : rsqrt a i = Ideal.rsqrt (a i) := rfl
theorem logistic_apply (a : FVec Ideal s φ) (i : s.Idx) : logistic a i = Ideal.logistic (a i) := rfl

/-- A vector times its logistic, elementwise. -/
def siluV (v : FVec Ideal s φ) : FVec Ideal s φ := mulf v (logistic v)

theorem siluV_apply (v : FVec Ideal s .f32) (i : s.Idx) : siluV v i = Cert.Spec.silu (v i) := rfl

end Pointwise

/-! ## Layer normalisation as the body spells it, read at an index

The body computes a row's mean as the lane sum divided by the word for 128, centres, takes the mean of the squares the
same way, adds the epsilon word, takes the reciprocal square root, and multiplies and adds the gain and shift rows. Read
at an index that is the specification's `lnorm` of the row. -/

section LayerNorm

abbrev R64x128 : Shape := ⟨2, ![64, 128]⟩
abbrev R64 : Shape := ⟨1, ![64]⟩
abbrev R64x1 : Shape := ⟨2, ![64, 1]⟩
abbrev R1x128 : Shape := ⟨2, ![1, 128]⟩
abbrev R64x256x128 : Shape := ⟨3, ![64, 256, 128]⟩
abbrev R64x256 : Shape := ⟨2, ![64, 256]⟩
abbrev R64x256x1 : Shape := ⟨3, ![64, 256, 1]⟩
abbrev R1x1x128 : Shape := ⟨3, ![1, 1, 128]⟩

/-- The rows of a 64 × 128 array normalised, gain and shift given as 1 × 128 rows. -/
def lnRows (v : FVec Ideal R64x128 .f32) (g β : FVec Ideal R1x128 .f32)
    (hr : R64x128.Reduces [1] R64) (hc : R64.ShapeCasts R64x1) (hb : R64x1.Broadcasts R64x128)
    (hg : R1x128.Broadcasts R64x128) : FVec Ideal R64x128 .f32 :=
  let n : FVec Ideal R64x1 .f32 := broadcast R64x1 (Scalar.ofBits .f32 0x43000000#32)
  let m : FVec Ideal R64x1 .f32 := divf (shapeCast R64x1 (multiReduction .add [1] R64 v 0x00000000#32 hr (.inl rfl) rfl) hc) n
  let c : FVec Ideal R64x128 .f32 := subf v (broadcastTo R64x128 m hb)
  let q : FVec Ideal R64x1 .f32 := divf (shapeCast R64x1 (multiReduction .add [1] R64 (mulf c c) 0x00000000#32 hr (.inl rfl) rfl) hc) n
  let s : FVec Ideal R64x1 .f32 := rsqrt (addf q (broadcast R64x1 (Scalar.ofBits .f32 0x3727C5AC#32)))
  addf (mulf (mulf c (broadcastTo R64x128 s hb)) (broadcastTo R64x128 g hg)) (broadcastTo R64x128 β hg)

theorem lnRows_apply (v : FVec Ideal R64x128 .f32) (g β : FVec Ideal R1x128 .f32)
    (hr : R64x128.Reduces [1] R64) (hc : R64.ShapeCasts R64x1) (hb : R64x1.Broadcasts R64x128)
    (hg : R1x128.Broadcasts R64x128) (r : Fin 64) (e : Fin 128) :
    lnRows v g β hr hc hb hg (ix2 r e)
      = Cert.Spec.lnorm (fun e => v (ix2 r e)) (fun e => g (ix2 (0 : Fin 1) e)) (fun e => β (ix2 (0 : Fin 1) e)) e := by
  unfold lnRows Cert.Spec.lnorm Cert.Spec.mean
  simp only [addf_apply, mulf_apply, subf_apply, divf_apply, rsqrt_apply, broadcast_apply, broadcastTo_a1_ab_apply,
    broadcastTo_1b_ab_apply, shapeCast_a_a1_apply, multiReduction, Ideal.reduceAdd_def, reduceAdd_cols_apply]
  rfl

/-- The rows (along the last axis) of a 64 × 256 × 128 array normalised, gain and shift given as 1 × 1 × 128 rows. -/
def lnSlab (v : FVec Ideal R64x256x128 .f32) (g β : FVec Ideal R1x1x128 .f32)
    (hr : R64x256x128.Reduces [2] R64x256) (hc : R64x256.ShapeCasts R64x256x1) (hb : R64x256x1.Broadcasts R64x256x128)
    (hg : R1x1x128.Broadcasts R64x256x128) : FVec Ideal R64x256x128 .f32 :=
  let n : FVec Ideal R64x256x1 .f32 := broadcast R64x256x1 (Scalar.ofBits .f32 0x43000000#32)
  let m : FVec Ideal R64x256x1 .f32 := divf (shapeCast R64x256x1 (multiReduction .add [2] R64x256 v 0x00000000#32 hr (.inl rfl) rfl) hc) n
  let c : FVec Ideal R64x256x128 .f32 := subf v (broadcastTo R64x256x128 m hb)
  let q : FVec Ideal R64x256x1 .f32 := divf (shapeCast R64x256x1 (multiReduction .add [2] R64x256 (mulf c c) 0x00000000#32 hr (.inl rfl) rfl) hc) n
  let s : FVec Ideal R64x256x1 .f32 := rsqrt (addf q (broadcast R64x256x1 (Scalar.ofBits .f32 0x3727C5AC#32)))
  addf (mulf (mulf c (broadcastTo R64x256x128 s hb)) (broadcastTo R64x256x128 g hg)) (broadcastTo R64x256x128 β hg)

theorem lnSlab_apply (v : FVec Ideal R64x256x128 .f32) (g β : FVec Ideal R1x1x128 .f32)
    (hr : R64x256x128.Reduces [2] R64x256) (hc : R64x256.ShapeCasts R64x256x1) (hb : R64x256x1.Broadcasts R64x256x128)
    (hg : R1x1x128.Broadcasts R64x256x128) (r : Fin 64) (j : Fin 256) (e : Fin 128) :
    lnSlab v g β hr hc hb hg (ix3 r j e)
      = Cert.Spec.lnorm (fun e => v (ix3 r j e)) (fun e => g (ix3 (0 : Fin 1) (0 : Fin 1) e))
          (fun e => β (ix3 (0 : Fin 1) (0 : Fin 1) e)) e := by
  unfold lnSlab Cert.Spec.lnorm Cert.Spec.mean
  simp only [addf_apply, mulf_apply, subf_apply, divf_apply, rsqrt_apply, broadcast_apply, broadcastTo_ab1_abc_apply,
    broadcastTo_11c_abc_apply, shapeCast_ab_ab1_apply, multiReduction, Ideal.reduceAdd_def, reduceAdd_last_apply]
  rfl

end LayerNorm

/-! ## The two matrix products read at an index

Into the zero constant a product read at `(r, e)` is the sum over the contraction coordinate `d` of the left operand at
`(r, d)` times the right operand at `(d, e)`. -/

section MatMul

theorem lhs64_0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide),
    dif_pos (show (0 : Fin S64x128.rank) ∈ dot_S64x128_S128x128_S64x128_1_0_0_1_n_n.lhsNonContracting by decide)]
  rfl
theorem lhs64_1 (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q
theorem rhs64_0 (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q
theorem rhs64_1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide),
    dif_pos (show (1 : Fin S128x128.rank) ∈ dot_S64x128_S128x128_S64x128_1_0_0_1_n_n.rhsNonContracting by decide)]
  rfl

/-- The 64 × 128 by 128 × 128 product at `(r, e)`. -/
theorem mm64_apply (l : FVec Ideal S64x128 .f32) (w : FVec Ideal S128x128 .f32) (r : Fin 64) (e : Fin 128) :
    FloatOps.matmul dot_S64x128_S128x128_S64x128_1_0_0_1_n_n none l w (constant (F := Ideal) S64x128 .f32 0x00000000#32) (ix2 r e)
      = ∑ d : Fin 128, l (ix2 r d) * w (ix2 d e) := by
  rw [Ideal.matmul_constant_zero_apply,
    ← Equiv.sum_comp (contrEquiv1 dot_S64x128_S128x128_S64x128_1_0_0_1_n_n 128 rfl rfl).symm]
  refine Finset.sum_congr rfl fun k _ => ?_
  have hk := contrEquiv1_symm_val dot_S64x128_S128x128_S64x128_1_0_0_1_n_n 128 rfl rfl k
  have el : dot_S64x128_S128x128_S64x128_1_0_0_1_n_n.lhsIdx (ix2 r e)
      ((contrEquiv1 dot_S64x128_S128x128_S64x128_1_0_0_1_n_n 128 rfl rfl).symm k) = ix2 r k :=
    funext fun a => Fin.ext (by
      match a with
      | ⟨0, _⟩ => exact lhs64_0 _ _
      | ⟨1, _⟩ => exact (lhs64_1 _ _).trans hk)
  have er : dot_S64x128_S128x128_S64x128_1_0_0_1_n_n.rhsIdx (ix2 r e)
      ((contrEquiv1 dot_S64x128_S128x128_S64x128_1_0_0_1_n_n 128 rfl rfl).symm k) = ix2 k e :=
    funext fun a => Fin.ext (by
      match a with
      | ⟨0, _⟩ => exact (rhs64_0 _ _).trans hk
      | ⟨1, _⟩ => exact rhs64_1 _ _)
  rw [el, er]

theorem lhs256_0 (i : S256x128.Idx) (q : dot_S256x128_S128x128_S256x128_1_0_0_1_n_n.contr.Idx) :
    (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide),
    dif_pos (show (0 : Fin S256x128.rank) ∈ dot_S256x128_S128x128_S256x128_1_0_0_1_n_n.lhsNonContracting by decide)]
  rfl
theorem lhs256_1 (i : S256x128.Idx) (q : dot_S256x128_S128x128_S256x128_1_0_0_1_n_n.contr.Idx) :
    (dot_S256x128_S128x128_S256x128_1_0_0_1_n_n.lhsIdx i q 1).val = (q ⟨0, by decide⟩).val :=
  dot_S256x128_S128x128_S256x128_1_0_0_1_n_n.lhsIdx_val_of_single rfl i q
theorem rhs256_0 (i : S256x128.Idx) (q : dot_S256x128_S128x128_S256x128_1_0_0_1_n_n.contr.Idx) :
    (dot_S256x128_S128x128_S256x128_1_0_0_1_n_n.rhsIdx i q 0).val = (q ⟨0, by decide⟩).val :=
  dot_S256x128_S128x128_S256x128_1_0_0_1_n_n.rhsIdx_val_of_single rfl i q
theorem rhs256_1 (i : S256x128.Idx) (q : dot_S256x128_S128x128_S256x128_1_0_0_1_n_n.contr.Idx) :
    (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide),
    dif_pos (show (1 : Fin S128x128.rank) ∈ dot_S256x128_S128x128_S256x128_1_0_0_1_n_n.rhsNonContracting by decide)]
  rfl

/-- The 256 × 128 by 128 × 128 product at `(j, e)`. -/
theorem mm256_apply (l : FVec Ideal S256x128 .f32) (w : FVec Ideal S128x128 .f32) (j : Fin 256) (e : Fin 128) :
    FloatOps.matmul dot_S256x128_S128x128_S256x128_1_0_0_1_n_n none l w (constant (F := Ideal) S256x128 .f32 0x00000000#32) (ix2 j e)
      = ∑ d : Fin 128, l (ix2 j d) * w (ix2 d e) := by
  rw [Ideal.matmul_constant_zero_apply,
    ← Equiv.sum_comp (contrEquiv1 dot_S256x128_S128x128_S256x128_1_0_0_1_n_n 128 rfl rfl).symm]
  refine Finset.sum_congr rfl fun k _ => ?_
  have hk := contrEquiv1_symm_val dot_S256x128_S128x128_S256x128_1_0_0_1_n_n 128 rfl rfl k
  have el : dot_S256x128_S128x128_S256x128_1_0_0_1_n_n.lhsIdx (ix2 j e)
      ((contrEquiv1 dot_S256x128_S128x128_S256x128_1_0_0_1_n_n 128 rfl rfl).symm k) = ix2 j k :=
    funext fun a => Fin.ext (by
      match a with
      | ⟨0, _⟩ => exact lhs256_0 _ _
      | ⟨1, _⟩ => exact (lhs256_1 _ _).trans hk)
  have er : dot_S256x128_S128x128_S256x128_1_0_0_1_n_n.rhsIdx (ix2 j e)
      ((contrEquiv1 dot_S256x128_S128x128_S256x128_1_0_0_1_n_n 128 rfl rfl).symm k) = ix2 k e :=
    funext fun a => Fin.ext (by
      match a with
      | ⟨0, _⟩ => exact (rhs256_0 _ _).trans hk
      | ⟨1, _⟩ => exact rhs256_1 _ _)
  rw [el, er]

end MatMul

/-! ## The diagonal indicator

The body compares the row offset plus the row's number in the tile with the column's number, as 32-bit words. The offset is
64 times the tile's number (at most 3), the row's number is below 64 and the column's below 256: nothing wraps, and
the comparison is the comparison of the numbers. -/

section Diagonal

theorem addi_apply {s : Shape} {w : ℕ} (x y : IVec s w) (i : s.Idx) : addi x y i = IntOp.addi (x i) (y i) := rfl
theorem cmpi_apply {s : Shape} {w : ℕ} (p : CmpIPredicate) (x y : IVec s w) (i : s.Idx) :
    cmpi p x y i = IntOp.cmpi p (x i) (y i) := rfl

/-- The row offset plus the row's number, as a word, is the word of 64 times the tile's number plus the row's number. -/
theorem rowStart_add (t1 : Fin 4) (i : grid0.Coords) (hi1 : (i 1).val = t1.val) (r : Fin 64) :
    IntOp.addi (Hand.rowStart i) (BitVec.ofNat 32 r.val) = BitVec.ofNat 32 (64 * t1.val + r.val) := by
  unfold Hand.rowStart Scalar.muli IntOp.muli IntOp.addi
  rw [hi1]
  apply BitVec.eq_of_toNat_eq
  have ht := t1.isLt
  have hr := r.isLt
  simp only [BitVec.toNat_add, BitVec.toNat_mul, BitVec.toNat_ofNat]
  omega

/-- So the select on the comparison is the choice on "the column is the row's own node". -/
theorem diag_select {α : Type} (t1 : Fin 4) (i : grid0.Coords) (hi1 : (i 1).val = t1.val) (r : Fin 64) (j : Fin 256)
    (a b : α) :
    Scalar.select (IntOp.cmpi .eq (IntOp.addi (Hand.rowStart i) (BitVec.ofNat 32 r.val)) (BitVec.ofNat 32 j.val)) a b
      = if 64 * t1.val + r.val = j.val then a else b := by
  rw [rowStart_add t1 i hi1 r]
  have ht := t1.isLt
  have hr := r.isLt
  have hj := j.isLt
  by_cases h : 64 * t1.val + r.val = j.val
  · rw [if_pos h, h]
    simp [Scalar.select, IntOp.cmpi]
  · rw [if_neg h]
    have hne : BitVec.ofNat 32 (64 * t1.val + r.val) ≠ BitVec.ofNat 32 j.val := by
      intro hc
      have := congrArg BitVec.toNat hc
      simp only [BitVec.toNat_ofNat] at this
      omega
    have hb : (BitVec.ofNat 32 (64 * t1.val + r.val) == BitVec.ofNat 32 j.val) = false := beq_eq_false_iff_ne.mpr hne
    simp [Scalar.select, IntOp.cmpi, hb]

end Diagonal

/-! ## The loaded blocks re-viewed -/

section Views

theorem pay2_apply (x0 : FVec Ideal S1x64x128 .f32) (r : Fin 64) (d : Fin 128) :
    k0_pay2 (F := Ideal) x0 (ix2 r d) = x0 (ix3 (0 : Fin 1) r d) := by
  unfold k0_pay2
  exact shapeCast_1ab_ab_apply x0 _ r d

theorem pay3_apply (x2 : FVec Ideal S1x64x256 .f32) (r : Fin 64) (j : Fin 256) :
    k0_pay3 (F := Ideal) x2 (ix2 r j) = x2 (ix3 (0 : Fin 1) r j) := by
  unfold k0_pay3
  exact shapeCast_1ab_ab_apply x2 _ r j

theorem pay4_eq (x4 : FVec Ideal S128x128 .f32) : k0_pay4 (F := Ideal) x4 = x4 := by
  unfold k0_pay4
  exact shapeCast_self x4 _

/-- A 1 × 128 row viewed as a vector of 128. -/
theorem row_apply (x : FVec Ideal S1x128 .f32) (h1 : S1x128.ShapeCasts S1x128) (h2 : S1x128.ShapeCasts S128) (e : Fin 128) :
    shapeCast S128 (shapeCast S1x128 x h1) h2 (ix1 e) = x (ix2 (0 : Fin 1) e) := by
  rw [shapeCast_self]
  exact shapeCast_1a_a_apply x h2 e

theorem pay5_apply (x : FVec Ideal S1x128 .f32) (e : Fin 128) : k0_pay5 (F := Ideal) x (ix1 e) = x (ix2 (0 : Fin 1) e) := by
  unfold k0_pay5; exact row_apply x _ _ e
theorem pay6_apply (x : FVec Ideal S1x128 .f32) (e : Fin 128) : k0_pay6 (F := Ideal) x (ix1 e) = x (ix2 (0 : Fin 1) e) := by
  unfold k0_pay6; exact row_apply x _ _ e
theorem pay7_apply (x : FVec Ideal S1x128 .f32) (e : Fin 128) : k0_pay7 (F := Ideal) x (ix1 e) = x (ix2 (0 : Fin 1) e) := by
  unfold k0_pay7; exact row_apply x _ _ e
theorem pay14_apply (x : FVec Ideal S1x128 .f32) (e : Fin 128) : k0_pay14 (F := Ideal) x (ix1 e) = x (ix2 (0 : Fin 1) e) := by
  unfold k0_pay14; exact row_apply x _ _ e
theorem pay15_apply (x : FVec Ideal S1x128 .f32) (e : Fin 128) : k0_pay15 (F := Ideal) x (ix1 e) = x (ix2 (0 : Fin 1) e) := by
  unfold k0_pay15; exact row_apply x _ _ e

theorem pay12_apply (v : FVec Ideal S128 .f32) (u : Fin 1) (e : Fin 128) : k0_pay12 (F := Ideal) v (ix2 u e) = v (ix1 e) := by
  unfold k0_pay12; exact shapeCast_a_1a_apply v _ u e
theorem pay13_apply (v : FVec Ideal S128 .f32) (u : Fin 1) (e : Fin 128) : k0_pay13 (F := Ideal) v (ix2 u e) = v (ix1 e) := by
  unfold k0_pay13; exact shapeCast_a_1a_apply v _ u e

theorem pay17_apply (x : FVec Ideal S1x128 .f32) (r : Fin 64) (e : Fin 128) :
    k0_pay17 (F := Ideal) x (ix2 r e) = x (ix2 (0 : Fin 1) e) := by
  unfold k0_pay17
  rw [broadcastTo_1b_ab_apply, shapeCast_a_1a_apply]
  exact row_apply x _ _ e

end Views

/-! ## The arithmetic pieces read at an index -/

section Pieces

theorem iota0_apply (h : S64x256.Iotas .tc 32 [0]) (r : Fin 64) (j : Fin 256) :
    iota .tc S64x256 32 [0] h (ix2 r j) = BitVec.ofNat 32 r.val :=
  iota_single_apply .tc S64x256 32 0 h (ix2 r j)
theorem iota1_apply (h : S64x256.Iotas .tc 32 [1]) (r : Fin 64) (j : Fin 256) :
    iota .tc S64x256 32 [1] h (ix2 r j) = BitVec.ofNat 32 j.val :=
  iota_single_apply .tc S64x256 32 1 h (ix2 r j)

/-- The zero word is the extended real 0. -/
theorem zero_word : (Scalar.ofBits .f32 0x00000000#32 : Ideal .f32) = 0 := Ideal.ofBits_zero_f32

/-- The target rows' projection with the bias added. -/
theorem pay8_apply (x0 : FVec Ideal S1x64x128 .f32) (x3 : FVec Ideal S128x128 .f32) (x6 : FVec Ideal S1x128 .f32)
    (r : Fin 64) (e : Fin 128) :
    k0_pay8 (F := Ideal) x0 x3 x6 (ix2 r e)
      = Cert.Spec.tprojT (fun r d => x0 (ix3 (0 : Fin 1) r d)) (fun d e => x3 (ix2 d e)) (fun e => x6 (ix2 (0 : Fin 1) e)) r e := by
  unfold k0_pay8 Cert.Spec.tprojT
  simp only [addf_apply, matmul, mm64_apply, pay2_apply, shapeCast_self, broadcastTo_1b_ab_apply, shapeCast_a_1a_apply,
    shapeCast_1a_a_apply]

/-- The slab of pre-activations before the edge term: the target's projection (with bias) plus the source's. -/
theorem pay9_apply (x0 : FVec Ideal S1x64x128 .f32) (x1 : FVec Ideal S1x256x128 .f32) (x3 x4 : FVec Ideal S128x128 .f32)
    (x6 : FVec Ideal S1x128 .f32) (r : Fin 64) (j : Fin 256) (e : Fin 128) :
    k0_pay9 (F := Ideal) x0 x1 x3 x4 x6 (ix3 r j e)
      = k0_pay8 (F := Ideal) x0 x3 x6 (ix2 r e) + ∑ d : Fin 128, x1 (ix3 (0 : Fin 1) j d) * x4 (ix2 d e) := by
  unfold k0_pay9
  simp only [addf_apply, matmul, broadcastTo_a1c_abc_apply, broadcastTo_1bc_abc_apply, shapeCast_ab_a1b_apply,
    shapeCast_ab_1ab_apply, mm256_apply, pay4_eq, shapeCast_1ab_ab_apply]

/-- The aggregate over all sources: the slab plus the edge term, normalised along the features, passed through
    x * logistic x, summed over the sources. -/
theorem pay10_eq (v7 : FVec Ideal S64x256 .f32) (v14 v20 v23 : FVec Ideal S128 .f32) (v33 : FVec Ideal S64x256x128 .f32) :
    k0_pay10 (F := Ideal) v7 v14 v20 v23 v33
      = multiReduction .add [1] S64x128
          (siluV (lnSlab
            (addf v33 (mulf
              (broadcastTo S64x256x128 (shapeCast S64x256x1 v7 shapeCasts_S64x256_S64x256x1) broadcasts_S64x256x1_S64x256x128)
              (broadcastTo S64x256x128 (shapeCast S1x1x128 v14 shapeCasts_S128_S1x1x128) broadcasts_S1x1x128_S64x256x128)))
            (shapeCast S1x1x128 v20 shapeCasts_S128_S1x1x128) (shapeCast S1x1x128 v23 shapeCasts_S128_S1x1x128)
            reduces_S64x256x128_S64x256 shapeCasts_S64x256_S64x256x1 broadcasts_S64x256x1_S64x256x128
            broadcasts_S1x1x128_S64x256x128))
          0x00000000#32 reduces_S64x256x128_S64x128 (.inl rfl) rfl := rfl

theorem pay10_apply (v7 : FVec Ideal S64x256 .f32) (v14 v20 v23 : FVec Ideal S128 .f32) (v33 : FVec Ideal S64x256x128 .f32)
    (r : Fin 64) (e : Fin 128) :
    k0_pay10 (F := Ideal) v7 v14 v20 v23 v33 (ix2 r e)
      = ∑ j : Fin 256, Cert.Spec.silu (Cert.Spec.lnorm (fun e' => v33 (ix3 r j e') + v7 (ix2 r j) * v14 (ix1 e'))
          (fun e' => v20 (ix1 e')) (fun e' => v23 (ix1 e')) e) := by
  rw [pay10_eq]
  simp only [multiReduction, Ideal.reduceAdd_def, reduceAdd_mid_apply, siluV_apply, lnSlab_apply, addf_apply, mulf_apply,
    broadcastTo_ab1_abc_apply, broadcastTo_11c_abc_apply, shapeCast_ab_ab1_apply, shapeCast_c_11c_apply]

/-- The diagonal pre-activation: the target's projection (with bias), the same rows through the source weight, and
    the row's own edge weight times the direction. -/
theorem pay11_apply (t1 : Fin 4) (i : grid0.Coords) (hi1 : (i 1).val = t1.val) (v3 : FVec Ideal S64x128 .f32)
    (v7 : FVec Ideal S64x256 .f32) (v11 : FVec Ideal S128x128 .f32) (v14 : FVec Ideal S128 .f32)
    (v27 : FVec Ideal S64x128 .f32) (r : Fin 64) (e : Fin 128) :
    k0_pay11 (F := Ideal) (Hand.rowStart i) v3 v7 v11 v14 v27 (ix2 r e)
      = v27 (ix2 r e) + (∑ d : Fin 128, v3 (ix2 r d) * v11 (ix2 d e))
          + Cert.Spec.tadjDiag t1 (fun r j => v7 (ix2 r j)) r * v14 (ix1 e) := by
  unfold k0_pay11 Cert.Spec.tadjDiag
  simp only [addf_apply, mulf_apply, matmul, mm64_apply, broadcastTo_a1_ab_apply, broadcastTo_1b_ab_apply,
    shapeCast_a_a1_apply, shapeCast_a_1a_apply, multiReduction, Ideal.reduceAdd_def, reduceAdd_cols_apply, select_apply,
    cmpi_apply, addi_apply, broadcast_apply, zero_word]
  refine congrArg (fun s : EReal => v27 (ix2 r e) + (∑ d : Fin 128, v3 (ix2 r d) * v11 (ix2 d e)) + s * v14 (ix1 e))
    (Finset.sum_congr rfl fun j _ => ?_)
  rw [iota0_apply, iota1_apply, diag_select t1 i hi1]

/-- The update's pre-activation without its bias: the node's rows through the first update weight plus the aggregate
    less the diagonal message through the second. -/
theorem pay16_eq (v3 v66 v82 : FVec Ideal S64x128 .f32) (v83 v84 : FVec Ideal S1x128 .f32) (v110 v112 : FVec Ideal S128x128 .f32) :
    k0_pay16 (F := Ideal) v3 v66 v82 v83 v84 v110 v112
      = addf
          (matmul dot_S64x128_S128x128_S64x128_1_0_0_1_n_n none v3 (shapeCast S128x128 v110 shapeCasts_S128x128_S128x128)
            (constant S64x128 .f32 0x00000000#32))
          (matmul dot_S64x128_S128x128_S64x128_1_0_0_1_n_n none
            (subf v66 (siluV (lnRows v82 v83 v84 reduces_S64x128_S64 shapeCasts_S64_S64x1 broadcasts_S64x1_S64x128
              broadcasts_S1x128_S64x128)))
            (shapeCast S128x128 v112 shapeCasts_S128x128_S128x128) (constant S64x128 .f32 0x00000000#32)) := rfl

theorem pay16_apply (v3 v66 v82 : FVec Ideal S64x128 .f32) (v83 v84 : FVec Ideal S1x128 .f32)
    (v110 v112 : FVec Ideal S128x128 .f32) (r : Fin 64) (e : Fin 128) :
    k0_pay16 (F := Ideal) v3 v66 v82 v83 v84 v110 v112 (ix2 r e)
      = (∑ d : Fin 128, v3 (ix2 r d) * v110 (ix2 d e))
        + ∑ d : Fin 128, (v66 (ix2 r d) - Cert.Spec.silu (Cert.Spec.lnorm (fun e' => v82 (ix2 r e'))
            (fun e' => v83 (ix2 (0 : Fin 1) e')) (fun e' => v84 (ix2 (0 : Fin 1) e')) d)) * v112 (ix2 d e) := by
  rw [pay16_eq]
  simp only [addf_apply, matmul, mm64_apply, subf_apply, siluV_apply, lnRows_apply, shapeCast_self]

/-- The stored block: the node's rows plus the update (pre-activation plus bias, normalised, through x * logistic x). -/
theorem pay1_eq (v3 : FVec Ideal S64x128 .f32) (v119 v122 : FVec Ideal S128 .f32) (v125 v127 : FVec Ideal S64x128 .f32) :
    k0_pay1 (F := Ideal) v3 v119 v122 v125 v127
      = shapeCast S1x64x128
          (addf v3 (siluV (lnRows (addf v125 v127) (shapeCast S1x128 v119 shapeCasts_S128_S1x128)
            (shapeCast S1x128 v122 shapeCasts_S128_S1x128) reduces_S64x128_S64 shapeCasts_S64_S64x1 broadcasts_S64x1_S64x128
            broadcasts_S1x128_S64x128)))
          shapeCasts_S64x128_S1x64x128 := rfl

theorem pay1_apply (v3 : FVec Ideal S64x128 .f32) (v119 v122 : FVec Ideal S128 .f32) (v125 v127 : FVec Ideal S64x128 .f32)
    (r : Fin 64) (e : Fin 128) :
    k0_pay1 (F := Ideal) v3 v119 v122 v125 v127 (ix3 (0 : Fin 1) r e)
      = v3 (ix2 r e) + Cert.Spec.silu (Cert.Spec.lnorm (fun e' => v125 (ix2 r e') + v127 (ix2 r e'))
          (fun e' => v119 (ix1 e')) (fun e' => v122 (ix1 e')) e) := by
  rw [pay1_eq, shapeCast_ab_1ab_apply]
  simp only [addf_apply, siluV_apply, lnRows_apply, shapeCast_a_1a_apply]

end Pieces

/-! ## The stored block read at an index: the tile specification -/

/-- What grid point `i` (second coordinate `t1`) stores at row `r`, feature `e` of its block is the tile specification's
    `tout` of the fourteen loaded blocks read by coordinates. -/
theorem body_apply (t1 : Fin 4) (i : Cert.KernelIdeal.grid0.Coords) (hi1 : (i 1).val = t1.val)
    (x0 : Vec Ideal S1x64x128 .f32) (x1 : Vec Ideal S1x256x128 .f32) (x2 : Vec Ideal S1x64x256 .f32)
    (x3 x4 : Vec Ideal S128x128 .f32) (x5 x6 x7 x8 : Vec Ideal S1x128 .f32) (x9 x10 : Vec Ideal S128x128 .f32)
    (x11 x12 x13 : Vec Ideal S1x128 .f32) (r : Fin 64) (e : Fin 128) :
    Cert.KernelIdeal.Hand.body (F := Ideal) i x0 x1 x2 x3 x4 x5 x6 x7 x8 x9 x10 x11 x12 x13 (ValueIdx.ix3 0 r e)
      = Cert.Spec.tout t1 (fun r d => x0 (ValueIdx.ix3 0 r d)) (fun j d => x1 (ValueIdx.ix3 0 j d)) (fun r j => x2 (ValueIdx.ix3 0 r j))
          (fun d e => x3 (ValueIdx.ix2 d e)) (fun d e => x4 (ValueIdx.ix2 d e)) (fun e => x5 (ValueIdx.ix2 0 e)) (fun e => x6 (ValueIdx.ix2 0 e))
          (fun e => x7 (ValueIdx.ix2 0 e)) (fun e => x8 (ValueIdx.ix2 0 e)) (fun d e => x9 (ValueIdx.ix2 d e)) (fun d e => x10 (ValueIdx.ix2 d e))
          (fun e => x11 (ValueIdx.ix2 0 e)) (fun e => x12 (ValueIdx.ix2 0 e)) (fun e => x13 (ValueIdx.ix2 0 e)) r e := by
  unfold Cert.KernelIdeal.Hand.body
  rw [pay1_apply]
  simp only [pay2_apply, pay14_apply, pay15_apply, pay17_apply, pay16_apply, pay12_apply, pay13_apply, pay6_apply,
    pay7_apply, pay10_apply, pay11_apply t1 i hi1, pay9_apply, pay8_apply, pay3_apply, pay4_eq, pay5_apply]
  rfl

end Cert.KernelIdeal.Tile
end
-- ==== Proof.ValueI.lean ====
/-
  What the idealized kernel's result array holds at the end, as one function of the ten argument arrays.

  At grid point (b, q) the body stores its function of the fourteen input blocks; read at row r and feature e that
  is the tile form of the specification at the blocks' entries; the blocks are rows 64 q … of batch entry b of the
  node features and edge weights, all rows of batch entry b, and the parameters, so the tile form is the array form
  at row 64 q + r of batch entry b; and the 32 output blocks tile the result array. Hence the array is the
  specification's function of the arguments everywhere.
-/
import proofs.«117897_j42099269435680_2_alg».proof.Proof.BlocksI
import proofs.«117897_j42099269435680_2_alg».proof.Proof.FrameRunI
import proofs.«117897_j42099269435680_2_alg».proof.Proof.KernelTile

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The specification's result array of core c's argument arrays as launched. -/
def GA (c : Dev nD) : S8x256x128.Idx → EReal :=
  Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- What grid point t writes back is block t of the specification's array. -/
theorem flushed14_eq (c : Dev nD) (t : Fin cfg0.N) :
    (dats m 0 c).flushed 14 t = ((cfg0.win 14).blk t).view.read (Elt Ideal) (GA m c) := by
  show (cfg0.win 14).cut (grid0.coords t) ((dats m 0 c).after 14 t) = _
  rw [after_14]
  unfold out14
  rw [View.canon_unit_zero hz3]
  simp only [View.ld_unit_zero (S := S1x64x128) hz3, View.ld_unit_zero (S := S1x256x128) hz3,
    View.ld_unit_zero (S := S1x64x256) hz3, View.ld_unit_zero (S := S128x128) hz2, View.ld_unit_zero (S := S1x128) hz2]
  funext j
  show body (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) j = GA m c (((cfg0.win 14).blk t).view.emb j)
  obtain ⟨r, e, rfl⟩ : ∃ (r : Fin 64) (e : Fin 128), j = (ix3 0 r e : S1x64x128.Idx) :=
    ⟨j 1, j 2, funext fun a => by
      match a with
      | ⟨0, _⟩ => exact Fin.ext (by have h : (j 0).val < 1 := (j 0).isLt; show (j 0).val = 0; omega)
      | ⟨1, _⟩ => rfl
      | ⟨2, _⟩ => rfl⟩
  refine (Cert.KernelIdeal.Tile.body_apply (tq t) (grid0.coords t) rfl (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) r e).trans ?_
  rw [emb14]
  simp only [blk0 m c t, blk1 m c t, blk2 m c t, blk3 m c t, blk4 m c t, blk5 m c t, blk6 m c t, blk7 m c t, blk8 m c t,
    blk9 m c t, blk10 m c t, blk11 m c t, blk12 m c t, blk13 m c t]
  refine (Cert.Spec.tout_eq_out_row (fun b i d => (m ((c : Thread nD τ).loc main_arg0) : S8x256x128.Idx → EReal) (ix3 b i d)) (fun b i k => (m ((c : Thread nD τ).loc main_arg1) : S8x256x256.Idx → EReal) (ix3 b i k)) (fun e' k => (m ((c : Thread nD τ).loc main_arg2) : S128x257.Idx → EReal) (ix2 e' k)) (fun e' => (m ((c : Thread nD τ).loc main_arg3) : S128.Idx → EReal) (ix1 e')) (fun e' => (m ((c : Thread nD τ).loc main_arg4) : S128.Idx → EReal) (ix1 e')) (fun e' => (m ((c : Thread nD τ).loc main_arg5) : S128.Idx → EReal) (ix1 e')) (fun e' k => (m ((c : Thread nD τ).loc main_arg6) : S128x256.Idx → EReal) (ix2 e' k)) (fun e' => (m ((c : Thread nD τ).loc main_arg7) : S128.Idx → EReal) (ix1 e')) (fun e' => (m ((c : Thread nD τ).loc main_arg8) : S128.Idx → EReal) (ix1 e')) (fun e' => (m ((c : Thread nD τ).loc main_arg9) : S128.Idx → EReal) (ix1 e')) (tb t) (tq t) r e).trans ?_
  rfl

/-- The result array after the run. -/
theorem final14 (c : Dev nD) : (dats m 0 c).arrAt 14 cfg0.N = GA m c :=
  (dats m 0 c).arrAt_eq_of_cover 14 (GA m c) (fun t _ => flushed14_eq m c t) cover14_arr

/-- Every weakly fair execution of the idealized kernel terminates with the result array at the specification's
    function of the arguments and the arguments unchanged. -/
theorem run_value : θ_run defs (onTc (τ := τ) (main (F := Ideal))) ⟨m, fun _ => 0, ρ⟩ (fun r => ∀ c : Dev nD,
      r.2.mem ((c.tc : Thread nD τ).loc main_v17) = GA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (final14 m c), (h c).2⟩) (run_named m ρ)

end Cert.KernelIdeal.Hand

end
-- ==== Proof.RefValue.lean ====
/-
  The reference computes the specification: its result array, read back one operation at a time, is the function G of
  the ten argument arrays.

  The layers follow the mathematics: the pre-activation of a (target, source) pair; its mean, its mean squared
  deviation and its layer norm over the 128 features; x times the logistic of x, which the program spells as
  x * (1 / (1 + exp (-x))); the sum over the sources; the diagonal term, which the program reads with a gather whose
  two index columns both hold the node number; the update's pre-activation; the second layer norm and activation;
  and the final sum with the node's own features. Each layer is stated at explicit coordinates for arbitrary
  argument arrays, and each proof reads the operations outermost first, identifies the composed index functions
  with coordinate tuples, and closes by the definitions of the ideal operations.
-/
import proofs.«117897_j42099269435680_2_alg».proof.Proof.ReadP
import proofs.«117897_j42099269435680_2_alg».proof.Proof.Spec
import Idealize.ShloMosaic.Lib.DynamicIndex

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open Cert.ReferenceIdeal.ReadP

section
variable (x0 : (⟨S8x256x128, .f32⟩ : BufTy).Contents (Elt Ideal)) (x1 : (⟨S8x256x256, .f32⟩ : BufTy).Contents (Elt Ideal))
  (x2 : (⟨S128x257, .f32⟩ : BufTy).Contents (Elt Ideal)) (x3 x4 x5 : (⟨S128, .f32⟩ : BufTy).Contents (Elt Ideal))
  (x6 : (⟨S128x256, .f32⟩ : BufTy).Contents (Elt Ideal)) (x7 x8 x9 : (⟨S128, .f32⟩ : BufTy).Contents (Elt Ideal))

/-- The argument arrays as functions of their coordinates. -/
abbrev aH : Fin 8 → Fin 256 → Fin 128 → EReal := fun b i d => x0 (ix3 b i d)
abbrev aA : Fin 8 → Fin 256 → Fin 256 → EReal := fun b i k => x1 (ix3 b i k)
abbrev aWm : Fin 128 → Fin 257 → EReal := fun e c => x2 (ix2 e c)
abbrev aV (x : (⟨S128, .f32⟩ : BufTy).Contents (Elt Ideal)) : Fin 128 → EReal := fun e => x (ix1 e)
abbrev aWu : Fin 128 → Fin 256 → EReal := fun e c => x6 (ix2 e c)

/-- The pre-activation: target projection plus source projection plus edge weight times direction, plus bias. -/
theorem pre_at (b : Fin 8) (i j : Fin 256) (e : Fin 128) :
    val_main_v19 (F := Ideal) x0 x1 x2 x3 (ix4 b i j e)
      = Spec.pre (aH x0) (aA x1) (aWm x2) (aV x3) b i j e := by
  have hT : ∀ k : Fin 128, lidx_main_v4 (idx_main_v5 (idx_main_v8 (ix4 b i j e))) k = ix3 b i k := fun k =>
    funext fun a => Fin.ext (by match a with | ⟨0, _⟩ => rfl | ⟨1, _⟩ => rfl | ⟨2, _⟩ => rfl)
  have hTw : ∀ k : Fin 128, idx_main_v0 (ridx_main_v4 (idx_main_v5 (idx_main_v8 (ix4 b i j e))) k) = ix2 e (Spec.colT k) := fun k =>
    funext fun a => Fin.ext (by match a with | ⟨0, _⟩ => rfl | ⟨1, _⟩ => rfl)
  have hS : ∀ k : Fin 128, lidx_main_v6 (idx_main_v7 (idx_main_v9 (ix4 b i j e))) k = ix3 b j k := fun k =>
    funext fun a => Fin.ext (by match a with | ⟨0, _⟩ => rfl | ⟨1, _⟩ => rfl | ⟨2, _⟩ => rfl)
  have hSw : ∀ k : Fin 128, idx_main_v1 (ridx_main_v6 (idx_main_v7 (idx_main_v9 (ix4 b i j e))) k) = ix2 e (Spec.colS k) := fun k =>
    funext fun a => Fin.ext (by match a with | ⟨0, _⟩ => rfl | ⟨1, _⟩ => rfl)
  have hA : idx_main_v11 (idx_main_v13 (ix4 b i j e)) = ix3 b i j :=
    funext fun a => Fin.ext (by match a with | ⟨0, _⟩ => rfl | ⟨1, _⟩ => rfl | ⟨2, _⟩ => rfl)
  have hJ : idx_main_v2 (idx_main_v3 (idx_main_v12 (idx_main_v14 (ix4 b i j e)))) = ix2 e Spec.colJ :=
    funext fun a => Fin.ext (by match a with | ⟨0, _⟩ => exact Nat.div_one _ | ⟨1, _⟩ => rfl)
  have hB : idx_main_v17 (idx_main_v18 (ix4 b i j e)) = ix1 e :=
    funext fun a => Fin.ext (by match a with | ⟨0, _⟩ => rfl)
  rw [val_main_v19_apply, val_main_v16_apply, val_main_v10_apply, val_main_v8_apply, val_main_v5_apply, val_main_v4_apply,
    val_main_v9_apply, val_main_v7_apply, val_main_v6_apply, val_main_v15_apply, val_main_v13_apply, val_main_v11_apply,
    val_main_v14_apply, val_main_v12_apply, val_main_v3_apply, val_main_v2_apply, val_main_v18_apply, val_main_v17_apply]
  simp only [val_main_v0_apply, val_main_v1_apply, hT, hTw, hS, hSw, hA, hJ, hB, Ideal.addf_def, Ideal.mulf_def]
  rfl

end

/-- The f32 word of one denotes one. -/
theorem ofBits_one_f32 : Ideal.ofBits .f32 0x3F800000#32 = 1 := by
  have hex : (BitVec.extractLsb' 23 8 (0x3F800000#32)).toNat = 127 := by decide
  have hfr : (BitVec.extractLsb' 0 23 (0x3F800000#32)).toNat = 0 := by decide
  have hneg : (BitVec.extractLsb' (8 + 23) 1 (0x3F800000#32) == 1#1) = false := by decide
  simp only [Ideal.ofBits, Ideal.ieee, hex, hfr, hneg]
  norm_num

section
variable (x0 : (⟨S8x256x128, .f32⟩ : BufTy).Contents (Elt Ideal)) (x1 : (⟨S8x256x256, .f32⟩ : BufTy).Contents (Elt Ideal))
  (x2 : (⟨S128x257, .f32⟩ : BufTy).Contents (Elt Ideal)) (x3 x4 x5 : (⟨S128, .f32⟩ : BufTy).Contents (Elt Ideal))
  (x6 : (⟨S128x256, .f32⟩ : BufTy).Contents (Elt Ideal)) (x7 x8 x9 : (⟨S128, .f32⟩ : BufTy).Contents (Elt Ideal))

/-- The mean over the 128 features of the pre-activation row (b, i, j). -/
theorem mean_at (b : Fin 8) (i j : Fin 256) (u : Fin 1) :
    val_main_v23 (F := Ideal) x0 x1 x2 x3 (ix4 b i j u)
      = Spec.mean (Spec.pre (aH x0) (aA x1) (aWm x2) (aV x3) b i j) := by
  have h20 : ∀ k : Fin 128, idx_main_v20 (idx_main_v21 (ix4 b i j u)) k = ix4 b i j k := fun k =>
    funext fun a => Fin.ext (by match a with | ⟨0, _⟩ => rfl | ⟨1, _⟩ => rfl | ⟨2, _⟩ => rfl | ⟨3, _⟩ => rfl)
  rw [val_main_v23_apply, val_main_v21_apply, val_main_v20_apply, val_main_cst_apply, val_main_v22_apply, val_main_cst_0_apply]
  simp only [h20, pre_at, Ideal.hostDivf_def, Ideal.ofBits_def, Ideal.ofBits_zero_f32, zero_add]
  rfl

/-- The mean of the squared deviations of the same row. -/
theorem var_at (b : Fin 8) (i j : Fin 256) (u : Fin 1) :
    val_main_v30 (F := Ideal) x0 x1 x2 x3 (ix4 b i j u)
      = Spec.mean (fun e' => (Spec.pre (aH x0) (aA x1) (aWm x2) (aV x3) b i j e'
            - Spec.mean (Spec.pre (aH x0) (aA x1) (aWm x2) (aV x3) b i j))
          * (Spec.pre (aH x0) (aA x1) (aWm x2) (aV x3) b i j e'
            - Spec.mean (Spec.pre (aH x0) (aA x1) (aWm x2) (aV x3) b i j))) := by
  have h27 : ∀ k : Fin 128, idx_main_v27 (idx_main_v28 (ix4 b i j u)) k = ix4 b i j k := fun k =>
    funext fun a => Fin.ext (by match a with | ⟨0, _⟩ => rfl | ⟨1, _⟩ => rfl | ⟨2, _⟩ => rfl | ⟨3, _⟩ => rfl)
  have h24 : ∀ k : Fin 128, idx_main_v24 (ix4 b i j k) = ix4 b i j (0 : Fin 1) := fun k =>
    funext fun a => Fin.ext (by match a with | ⟨0, _⟩ => rfl | ⟨1, _⟩ => rfl | ⟨2, _⟩ => rfl | ⟨3, _⟩ => rfl)
  rw [val_main_v30_apply, val_main_v28_apply, val_main_v27_apply, val_main_cst_1_apply, val_main_v29_apply, val_main_cst_2_apply]
  simp only [h27, val_main_v26_apply, val_main_v25_apply, val_main_v24_apply, h24, mean_at, pre_at, Ideal.hostDivf_def,
    Ideal.ofBits_def, Ideal.ofBits_zero_f32, zero_add, Ideal.mulf_def, Ideal.subf_def]
  rfl

/-- The layer norm of the pre-activation row, at feature e. -/
theorem lnorm_at (b : Fin 8) (i j : Fin 256) (e : Fin 128) :
    val_main_v43 (F := Ideal) x0 x1 x2 x3 x4 x5 (ix4 b i j e)
      = Spec.lnorm (Spec.pre (aH x0) (aA x1) (aWm x2) (aV x3) b i j) (aV x4) (aV x5) e := by
  have h31 : idx_main_v31 (ix4 b i j e) = ix4 b i j (0 : Fin 1) :=
    funext fun a => Fin.ext (by match a with | ⟨0, _⟩ => rfl | ⟨1, _⟩ => rfl | ⟨2, _⟩ => rfl | ⟨3, _⟩ => rfl)
  have h36 : idx_main_v36 (ix4 b i j e) = ix4 b i j (0 : Fin 1) :=
    funext fun a => Fin.ext (by match a with | ⟨0, _⟩ => rfl | ⟨1, _⟩ => rfl | ⟨2, _⟩ => rfl | ⟨3, _⟩ => rfl)
  have h38 : idx_main_v38 (idx_main_v39 (ix4 b i j e)) = ix1 e :=
    funext fun a => Fin.ext (by match a with | ⟨0, _⟩ => rfl)
  have h41 : idx_main_v41 (idx_main_v42 (ix4 b i j e)) = ix1 e :=
    funext fun a => Fin.ext (by match a with | ⟨0, _⟩ => rfl)
  rw [val_main_v43_apply, val_main_v40_apply, val_main_v37_apply, val_main_v32_apply, val_main_v31_apply, h31, mean_at, pre_at,
    val_main_v36_apply, h36, val_main_v35_apply, val_main_v34_apply, var_at, val_main_v33_apply, val_main_cst_3_apply,
    val_main_v39_apply, val_main_v38_apply, h38, val_main_v42_apply, val_main_v41_apply, h41]
  simp only [Ideal.addf_def, Ideal.mulf_def, Ideal.subf_def, Ideal.hostUnary_rsqrt_def, Ideal.ofBits_def]
  rfl

/-- The call to x * logistic x, at any index: one divided by one plus the exponential of minus x, times x. -/
theorem silu_at (i : S8x256x256x128.Idx) :
    val_main_v44 (F := Ideal) x0 x1 x2 x3 x4 x5 i = Spec.silu (val_main_v43 (F := Ideal) x0 x1 x2 x3 x4 x5 i) := by
  rw [val_main_v44_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.addf_def, Ideal.mulf_def, Ideal.hostDivf_def, Ideal.hostUnary_exp_def, Ideal.hostNegf_def, Ideal.negf_def,
    Ideal.ofBits_def, ofBits_one_f32]
  rfl

/-- The message from source j to target i. -/
theorem msg_at (b : Fin 8) (i j : Fin 256) (e : Fin 128) :
    val_main_v44 (F := Ideal) x0 x1 x2 x3 x4 x5 (ix4 b i j e)
      = Spec.msg (aH x0) (aA x1) (aWm x2) (aV x3) (aV x4) (aV x5) b i j e := by
  rw [silu_at, lnorm_at]
  rfl

end

section Gather

/-- A node number below 256 as a 32-bit word is not negative, so the wrap of a negative index leaves it alone. -/
theorem wrap_word (i : Fin 256) (y : BitVec 32) :
    Scalar.select (IntOp.cmpi .slt (BitVec.ofNat 32 i.val) 0#32) y (BitVec.ofNat 32 i.val) = BitVec.ofNat 32 i.val := by
  have hlt : (BitVec.ofNat 32 i.val).slt 0#32 = false := by
    simp only [BitVec.slt, BitVec.toInt_zero, decide_eq_false_iff_not, Int.not_lt]
    rw [toInt_ofNat_of_lt (by have := i.isLt; omega)]; omega
  show (if BitVec.ofBool ((BitVec.ofNat 32 i.val).slt 0#32) = 1 then _ else _) = _
  rw [hlt]
  rfl

/-- The first index column at node i holds i. -/
theorem v51_at (i : Fin 256) : val_main_v51 (F := Ideal) (ix1 i) = BitVec.ofNat 32 i.val := by
  show Scalar.select (IntOp.cmpi .slt (BitVec.ofNat 32 i.val) (val_main_v47 (F := Ideal) (ix1 i)))
    (val_main_v50 (F := Ideal) (ix1 i)) (BitVec.ofNat 32 i.val) = _
  rw [val_main_v47_apply, val_main_c_apply]
  exact wrap_word i _

/-- The second index column at node i holds i. -/
theorem v56_at (i : Fin 256) : val_main_v56 (F := Ideal) (ix1 i) = BitVec.ofNat 32 i.val := by
  show Scalar.select (IntOp.cmpi .slt (BitVec.ofNat 32 i.val) (val_main_v52 (F := Ideal) (ix1 i)))
    (val_main_v55 (F := Ideal) (ix1 i)) (BitVec.ofNat 32 i.val) = _
  rw [val_main_v52_apply, val_main_c_6_apply]
  exact wrap_word i _

/-- The joined index array, first column. -/
theorem v59_left (i : Fin 256) : val_main_v59 (F := Ideal) (ix2 i (0 : Fin 2)) = BitVec.ofNat 32 i.val := by
  unfold val_main_v59
  rw [concatenate_pair_apply_left (1 : Fin S256x2.rank) _ _ concatenates_S256x1_S256x1_S256x2_d1 (ix2 i (0 : Fin 2)) rfl
    (ix2 i (0 : Fin 1)) (fun b => by match b with | ⟨0, _⟩ => rfl | ⟨1, _⟩ => rfl)]
  rw [val_main_v57_apply, show idx_main_v57 (ix2 i (0 : Fin 1)) = ix1 i from
    funext fun a => Fin.ext (by match a with | ⟨0, _⟩ => rfl), v51_at]

/-- The joined index array, second column. -/
theorem v59_right (i : Fin 256) : val_main_v59 (F := Ideal) (ix2 i (1 : Fin 2)) = BitVec.ofNat 32 i.val := by
  unfold val_main_v59
  rw [concatenate_pair_apply_right (1 : Fin S256x2.rank) _ _ concatenates_S256x1_S256x1_S256x2_d1 (ix2 i (1 : Fin 2)) rfl rfl
    (ix2 i (0 : Fin 1)) (fun b hb => by match b with | ⟨0, _⟩ => rfl | ⟨1, _⟩ => exact absurd rfl hb) rfl]
  rw [val_main_v58_apply, show idx_main_v58 (ix2 i (0 : Fin 1)) = ix1 i from
    funext fun a => Fin.ext (by match a with | ⟨0, _⟩ => rfl), v56_at]

/-- A node number as a word, read signed, is the node number. -/
theorem toNat_word (i : Fin 256) : (BitVec.ofNat 32 i.val).toInt.toNat = i.val := by
  rw [toInt_ofNat_of_lt (by have := i.isLt; omega)]; rfl

local notation "gD" => gather_S8x256x256x128_S256x2_S8x256x128_02_12_n_n_12_1_811128

section Coords
variable {α : Type} (idx : IVec S256x2 32) (b : Fin 8) (i : Fin 256) (e : Fin 128)

/-- Operand axis 0 is an offset axis: it reads the result's first coordinate. -/
theorem gd_coord0 : (GatherDims.operandIdx gD (ix3 b i e) idx 0).val = b.val := by
  show GatherDims.start gD (ix3 b i e) idx 0 + GatherDims.batchCoord gD (ix3 b i e) 0 + GatherDims.offCoord gD (ix3 b i e) 0 = _
  rw [GatherDims.batchCoord_eq_zero _ _ _ List.not_mem_nil]
  unfold GatherDims.start GatherDims.offCoord
  rw [dif_neg (show ¬(0 : Fin S8x256x256x128.rank) ∈ (gD).startIndexMap by decide),
    dif_pos (show (0 : Fin S8x256x256x128.rank) ∈ (gD).sKept by decide)]
  rw [Nat.zero_add]
  rfl

/-- Operand axis 3 is the other offset axis: it reads the result's last coordinate. -/
theorem gd_coord3 : (GatherDims.operandIdx gD (ix3 b i e) idx 3).val = e.val := by
  show GatherDims.start gD (ix3 b i e) idx 3 + GatherDims.batchCoord gD (ix3 b i e) 3 + GatherDims.offCoord gD (ix3 b i e) 3 = _
  rw [GatherDims.batchCoord_eq_zero _ _ _ List.not_mem_nil]
  unfold GatherDims.start GatherDims.offCoord
  rw [dif_neg (show ¬(3 : Fin S8x256x256x128.rank) ∈ (gD).startIndexMap by decide),
    dif_pos (show (3 : Fin S8x256x256x128.rank) ∈ (gD).sKept by decide)]
  rw [Nat.zero_add]
  rfl

/-- Operand axis 1 is collapsed and indexed by the first start-index column. -/
theorem gd_coord1 (h0 : (idx (ix2 i (0 : Fin 2))).toInt.toNat = i.val) :
    (GatherDims.operandIdx gD (ix3 b i e) idx 1).val = i.val := by
  show GatherDims.start gD (ix3 b i e) idx 1 + GatherDims.batchCoord gD (ix3 b i e) 1 + GatherDims.offCoord gD (ix3 b i e) 1 = _
  rw [GatherDims.batchCoord_eq_zero _ _ _ List.not_mem_nil,
    GatherDims.offCoord_eq_zero _ _ _ (show ¬(1 : Fin S8x256x256x128.rank) ∈ (gD).sKept by decide)]
  unfold GatherDims.start
  rw [dif_pos (show (1 : Fin S8x256x256x128.rank) ∈ (gD).startIndexMap by decide)]
  have hsi : (gD).siIdx (ix3 b i e) ⟨List.idxOf (1 : Fin S8x256x256x128.rank) (gD).startIndexMap,
      List.idxOf_lt_length_iff.2 (show (1 : Fin S8x256x256x128.rank) ∈ (gD).startIndexMap by decide)⟩ = ix2 i (0 : Fin 2) := by
    funext c; refine Fin.ext ?_
    match c with
    | ⟨0, _⟩ => rfl
    | ⟨1, _⟩ => rfl
  rw [hsi, h0]
  show min i.val (256 - 1) + 0 + 0 = i.val
  have := i.isLt; omega

/-- Operand axis 2 is collapsed and indexed by the second start-index column. -/
theorem gd_coord2 (h1 : (idx (ix2 i (1 : Fin 2))).toInt.toNat = i.val) :
    (GatherDims.operandIdx gD (ix3 b i e) idx 2).val = i.val := by
  show GatherDims.start gD (ix3 b i e) idx 2 + GatherDims.batchCoord gD (ix3 b i e) 2 + GatherDims.offCoord gD (ix3 b i e) 2 = _
  rw [GatherDims.batchCoord_eq_zero _ _ _ List.not_mem_nil,
    GatherDims.offCoord_eq_zero _ _ _ (show ¬(2 : Fin S8x256x256x128.rank) ∈ (gD).sKept by decide)]
  unfold GatherDims.start
  rw [dif_pos (show (2 : Fin S8x256x256x128.rank) ∈ (gD).startIndexMap by decide)]
  have hsi : (gD).siIdx (ix3 b i e) ⟨List.idxOf (2 : Fin S8x256x256x128.rank) (gD).startIndexMap,
      List.idxOf_lt_length_iff.2 (show (2 : Fin S8x256x256x128.rank) ∈ (gD).startIndexMap by decide)⟩ = ix2 i (1 : Fin 2) := by
    funext c; refine Fin.ext ?_
    match c with
    | ⟨0, _⟩ => rfl
    | ⟨1, _⟩ => rfl
  rw [hsi, h1]
  show min i.val (256 - 1) + 0 + 0 = i.val
  have := i.isLt; omega

end Coords

/-- The gather with both start-index columns holding the node number reads the diagonal: element (b, i, e) of the
    result is element (b, i, i, e) of the operand. -/
theorem gather_diag {α : Type} (x : S8x256x256x128.Idx → α) (idx : IVec S256x2 32) (b : Fin 8) (i : Fin 256) (e : Fin 128)
    (h0 : (idx (ix2 i (0 : Fin 2))).toInt.toNat = i.val) (h1 : (idx (ix2 i (1 : Fin 2))).toInt.toNat = i.val) :
    Host.gather gD x idx (ix3 b i e) = x (ix4 b i i e) := by
  unfold Host.gather
  congr 1
  funext a
  refine Fin.ext ?_
  match a with
  | ⟨0, _⟩ => exact gd_coord0 idx b i e
  | ⟨1, _⟩ => exact gd_coord1 idx b i e h0
  | ⟨2, _⟩ => exact gd_coord2 idx b i e h1
  | ⟨3, _⟩ => exact gd_coord3 idx b i e

end Gather

section
variable (x0 : (⟨S8x256x128, .f32⟩ : BufTy).Contents (Elt Ideal)) (x1 : (⟨S8x256x256, .f32⟩ : BufTy).Contents (Elt Ideal))
  (x2 : (⟨S128x257, .f32⟩ : BufTy).Contents (Elt Ideal)) (x3 x4 x5 : (⟨S128, .f32⟩ : BufTy).Contents (Elt Ideal))
  (x6 : (⟨S128x256, .f32⟩ : BufTy).Contents (Elt Ideal)) (x7 x8 x9 : (⟨S128, .f32⟩ : BufTy).Contents (Elt Ideal))

/-- The aggregate: the sum of the messages over all sources less the diagonal one, which the gather reads. -/
theorem agg_at (b : Fin 8) (i : Fin 256) (e : Fin 128) :
    val_main_v61 (F := Ideal) x0 x1 x2 x3 x4 x5 (ix3 b i e) = Spec.agg (aH x0) (aA x1) (aWm x2) (aV x3) (aV x4) (aV x5) b i e := by
  have h46 : ∀ k : Fin 256, idx_main_v46 (ix3 b i e) k = ix4 b i k e := fun k => funext fun a => Fin.ext (by match a with | ⟨0, _⟩ => rfl | ⟨1, _⟩ => rfl | ⟨2, _⟩ => rfl | ⟨3, _⟩ => rfl)
  have hg : val_main_v60 (F := Ideal) x0 x1 x2 x3 x4 x5 (ix3 b i e)
      = val_main_v44 (F := Ideal) x0 x1 x2 x3 x4 x5 (ix4 b i i e) := by
    unfold val_main_v60
    exact gather_diag _ _ b i e (by rw [v59_left]; exact toNat_word i) (by rw [v59_right]; exact toNat_word i)
  rw [val_main_v61_apply, val_main_v46_apply, val_main_cst_4_apply, hg]
  simp only [h46, msg_at, Ideal.subf_def, Ideal.ofBits_def, Ideal.ofBits_zero_f32, zero_add]
  rfl

/-- The update's pre-activation: projections of the node's features and of the aggregate, plus bias. -/
theorem updPre_at (b : Fin 8) (i : Fin 256) (e : Fin 128) :
    val_main_v69 (F := Ideal) x0 x1 x2 x3 x4 x5 x6 x7 (ix3 b i e) = Spec.updPre (aH x0) (aA x1) (aWm x2) (aV x3) (aV x4) (aV x5) (aWu x6) (aV x7) b i e := by
  have h63l : ∀ k : Fin 128, lidx_main_v63 (ix3 b i e) k = ix3 b i k := fun k => funext fun a => Fin.ext (by match a with | ⟨0, _⟩ => rfl | ⟨1, _⟩ => rfl | ⟨2, _⟩ => rfl)
  have h63r : ∀ k : Fin 128, idx_main_v62 (ridx_main_v63 (ix3 b i e) k) = ix2 e (Spec.colU1 k) := fun k => funext fun a => Fin.ext (by match a with | ⟨0, _⟩ => rfl | ⟨1, _⟩ => rfl)
  have h65l : ∀ k : Fin 128, lidx_main_v65 (ix3 b i e) k = ix3 b i k := fun k => funext fun a => Fin.ext (by match a with | ⟨0, _⟩ => rfl | ⟨1, _⟩ => rfl | ⟨2, _⟩ => rfl)
  have h65r : ∀ k : Fin 128, idx_main_v64 (ridx_main_v65 (ix3 b i e) k) = ix2 e (Spec.colU2 k) := fun k => funext fun a => Fin.ext (by match a with | ⟨0, _⟩ => rfl | ⟨1, _⟩ => rfl)
  have h67 : idx_main_v67 (idx_main_v68 (ix3 b i e)) = ix1 e := funext fun a => Fin.ext (by match a with | ⟨0, _⟩ => rfl)
  rw [val_main_v69_apply, val_main_v66_apply, val_main_v63_apply, val_main_v65_apply, val_main_v68_apply, val_main_v67_apply, h67]
  simp only [val_main_v62_apply, val_main_v64_apply, h63l, h63r, h65l, h65r, agg_at, Ideal.addf_def]
  rfl

/-- The mean over the features of the update's pre-activation row (b, i). -/
theorem mean2_at (b : Fin 8) (i : Fin 256) (u : Fin 1) :
    val_main_v73 (F := Ideal) x0 x1 x2 x3 x4 x5 x6 x7 (ix3 b i u) = Spec.mean (Spec.updPre (aH x0) (aA x1) (aWm x2) (aV x3) (aV x4) (aV x5) (aWu x6) (aV x7) b i) := by
  have h70 : ∀ k : Fin 128, idx_main_v70 (idx_main_v71 (ix3 b i u)) k = ix3 b i k := fun k => funext fun a => Fin.ext (by match a with | ⟨0, _⟩ => rfl | ⟨1, _⟩ => rfl | ⟨2, _⟩ => rfl)
  rw [val_main_v73_apply, val_main_v71_apply, val_main_v70_apply, val_main_cst_8_apply, val_main_v72_apply, val_main_cst_9_apply]
  simp only [h70, updPre_at, Ideal.hostDivf_def, Ideal.ofBits_def, Ideal.ofBits_zero_f32, zero_add]
  rfl

/-- The mean of the squared deviations of the same row. -/
theorem var2_at (b : Fin 8) (i : Fin 256) (u : Fin 1) :
    val_main_v80 (F := Ideal) x0 x1 x2 x3 x4 x5 x6 x7 (ix3 b i u)
      = Spec.mean (fun e' => (Spec.updPre (aH x0) (aA x1) (aWm x2) (aV x3) (aV x4) (aV x5) (aWu x6) (aV x7) b i e' - Spec.mean (Spec.updPre (aH x0) (aA x1) (aWm x2) (aV x3) (aV x4) (aV x5) (aWu x6) (aV x7) b i))
          * (Spec.updPre (aH x0) (aA x1) (aWm x2) (aV x3) (aV x4) (aV x5) (aWu x6) (aV x7) b i e' - Spec.mean (Spec.updPre (aH x0) (aA x1) (aWm x2) (aV x3) (aV x4) (aV x5) (aWu x6) (aV x7) b i))) := by
  have h77 : ∀ k : Fin 128, idx_main_v77 (idx_main_v78 (ix3 b i u)) k = ix3 b i k := fun k => funext fun a => Fin.ext (by match a with | ⟨0, _⟩ => rfl | ⟨1, _⟩ => rfl | ⟨2, _⟩ => rfl)
  have h74 : ∀ k : Fin 128, idx_main_v74 (ix3 b i k) = ix3 b i (0 : Fin 1) := fun k => funext fun a => Fin.ext (by match a with | ⟨0, _⟩ => rfl | ⟨1, _⟩ => rfl | ⟨2, _⟩ => rfl)
  rw [val_main_v80_apply, val_main_v78_apply, val_main_v77_apply, val_main_cst_10_apply, val_main_v79_apply, val_main_cst_11_apply]
  simp only [h77, val_main_v76_apply, val_main_v75_apply, val_main_v74_apply, h74, mean2_at, updPre_at, Ideal.hostDivf_def,
    Ideal.ofBits_def, Ideal.ofBits_zero_f32, zero_add, Ideal.mulf_def, Ideal.subf_def]
  rfl

/-- The layer norm of the update's pre-activation row, at feature e. -/
theorem lnorm2_at (b : Fin 8) (i : Fin 256) (e : Fin 128) :
    val_main_v93 (F := Ideal) x0 x1 x2 x3 x4 x5 x6 x7 x8 x9 (ix3 b i e)
      = Spec.lnorm (Spec.updPre (aH x0) (aA x1) (aWm x2) (aV x3) (aV x4) (aV x5) (aWu x6) (aV x7) b i) (aV x8) (aV x9) e := by
  have h81 : idx_main_v81 (ix3 b i e) = ix3 b i (0 : Fin 1) := funext fun a => Fin.ext (by match a with | ⟨0, _⟩ => rfl | ⟨1, _⟩ => rfl | ⟨2, _⟩ => rfl)
  have h86 : idx_main_v86 (ix3 b i e) = ix3 b i (0 : Fin 1) := funext fun a => Fin.ext (by match a with | ⟨0, _⟩ => rfl | ⟨1, _⟩ => rfl | ⟨2, _⟩ => rfl)
  have h88 : idx_main_v88 (idx_main_v89 (ix3 b i e)) = ix1 e := funext fun a => Fin.ext (by match a with | ⟨0, _⟩ => rfl)
  have h91 : idx_main_v91 (idx_main_v92 (ix3 b i e)) = ix1 e := funext fun a => Fin.ext (by match a with | ⟨0, _⟩ => rfl)
  rw [val_main_v93_apply, val_main_v90_apply, val_main_v87_apply, val_main_v82_apply, val_main_v81_apply, h81, mean2_at, updPre_at,
    val_main_v86_apply, h86, val_main_v85_apply, val_main_v84_apply, var2_at, val_main_v83_apply, val_main_cst_12_apply,
    val_main_v89_apply, val_main_v88_apply, h88, val_main_v92_apply, val_main_v91_apply, h91]
  simp only [Ideal.addf_def, Ideal.mulf_def, Ideal.subf_def, Ideal.hostUnary_rsqrt_def, Ideal.ofBits_def]
  rfl

/-- The second call to x * logistic x, at any index. -/
theorem silu2_at (i : S8x256x128.Idx) :
    val_main_v94 (F := Ideal) x0 x1 x2 x3 x4 x5 x6 x7 x8 x9 i
      = Spec.silu (val_main_v93 (F := Ideal) x0 x1 x2 x3 x4 x5 x6 x7 x8 x9 i) := by
  rw [val_main_v94_apply, val_main_call1_v5_apply, val_main_call1_v4_apply, val_main_call1_cst_0_apply,
    val_main_call1_v3_apply, val_main_call1_v2_apply, val_main_call1_cst_apply, val_main_call1_v1_apply,
    val_main_call1_v0_apply]
  simp only [Ideal.addf_def, Ideal.mulf_def, Ideal.hostDivf_def, Ideal.hostUnary_exp_def, Ideal.hostNegf_def, Ideal.negf_def,
    Ideal.ofBits_def, ofBits_one_f32]
  rfl

/-- The result at (b, i, e): the node's feature plus the activated, normalised update. -/
theorem out_at (b : Fin 8) (i : Fin 256) (e : Fin 128) :
    val_main_v95 (F := Ideal) x0 x1 x2 x3 x4 x5 x6 x7 x8 x9 (ix3 b i e)
      = Spec.out (aH x0) (aA x1) (aWm x2) (aV x3) (aV x4) (aV x5) (aWu x6) (aV x7) (aV x8) (aV x9) b i e := by
  rw [val_main_v95_apply, silu2_at, lnorm2_at]
  rfl

/-- The reference's result array is the specification's, index by index. -/
theorem ref_eq :
    val_main_v95 (F := Ideal) x0 x1 x2 x3 x4 x5 x6 x7 x8 x9 = Spec.G x0 x1 x2 x3 x4 x5 x6 x7 x8 x9 := by
  funext j
  obtain ⟨b, i, e, rfl⟩ : ∃ (b : Fin 8) (i : Fin 256) (e : Fin 128), j = ix3 b i e := ⟨j 0, j 1, j 2, eq_ix3 j⟩
  exact out_at x0 x1 x2 x3 x4 x5 x6 x7 x8 x9 b i e

end

end Cert.ReferenceIdeal.RefValue

end
-- ==== Proof.lean ====
/-
  The five claims about the graph message-passing kernel and its reference.

  The kernel computes, for each of 8 batch entries and each of 256 target nodes, the sum over the other nodes of a
  layer-normalised, x·logistic(x)-activated message built from projections of the target's and the source's features
  and the edge weight, and then updates the node by a second layer-normalised activation of projections of the
  node and that sum. It handles 64 target rows per grid point, adds the bias to the target projection before the
  source projection, and obtains the sum over the other nodes as the sum over all nodes minus a diagonal term it
  recomputes from the tile's own rows and the diagonal of the edge-weight tile. The reference forms all messages
  at once and subtracts the gathered diagonal.

  Over the extended reals the two are the same function of the arguments: sums may be regrouped and reordered
  without any finiteness (addition of extended reals is commutative and associative), the diagonal of a row is the
  row summed against the indicator of the diagonal column, and both sides use the same literals (128, the epsilon)
  and the same operations (division, reciprocal square root, logistic as 1 / (1 + exp (−x))). The precondition is
  never opened.

  The three frames: each program runs to the end, faults nowhere and leaves its arguments unchanged. For the two
  kernel programs this is the hand-written launch (the node features are passed to the kernel through two windows,
  whose shared array is divided between them); for the reference it is its run with the result dropped. The
  idealization rewrote nothing, so the preservation claim is trivial.
-/
import proofs.«117897_j42099269435680_2_alg».proof.Defs
import proofs.«117897_j42099269435680_2_alg».proof.Proof.Gen.Kernel
import proofs.«117897_j42099269435680_2_alg».proof.Proof.Gen.Kernel.Skeleton
import proofs.«117897_j42099269435680_2_alg».proof.Proof.Gen.Kernel.Launch
import proofs.«117897_j42099269435680_2_alg».proof.Proof.Gen.Kernel.Points
import proofs.«117897_j42099269435680_2_alg».proof.Proof.Gen.KernelIdeal
import proofs.«117897_j42099269435680_2_alg».proof.Proof.Gen.KernelIdeal.Skeleton
import proofs.«117897_j42099269435680_2_alg».proof.Proof.Gen.KernelIdeal.Launch
import proofs.«117897_j42099269435680_2_alg».proof.Proof.Gen.KernelIdeal.Points
import proofs.«117897_j42099269435680_2_alg».proof.Proof.Gen.ReferenceIdeal
import proofs.«117897_j42099269435680_2_alg».proof.Proof.Gen.Pre_finite_inputs
import proofs.«117897_j42099269435680_2_alg».proof.Proof.FrameRunB
import proofs.«117897_j42099269435680_2_alg».proof.Proof.ValueI
import proofs.«117897_j42099269435680_2_alg».proof.Proof.RefValue
import Idealize.ShloMosaic.Adequacy
import Idealize.ShloMosaic.Init

noncomputable section

namespace Cert.Proof

open Idealize.ShloMosaic Idealize.SL.Sem

namespace Claims

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end with the result array at the specification's function of the arguments: the kernel
    by its run read block by block, the reference by its run read operation by operation; the arguments agree. -/
theorem algebraic : Cert.algebraic_KernelIdeal_ReferenceIdeal := by
  intro m ρ m' ρ' _ hagree
  refine ⟨fun c => Cert.KernelIdeal.Hand.GA m c, Cert.KernelIdeal.Hand.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  rw [Cert.ReferenceIdeal.ReadP.val_main_v95_eq, Cert.ReferenceIdeal.RefValue.ref_eq, h0, h1, h2, h3, h4, h5, h6, h7, h8, h9]
  rfl

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
